-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S10000x40 : Shape := ⟨2, ![10000, 40]⟩
abbrev S400x10000 : Shape := ⟨2, ![400, 10000]⟩
abbrev S400x40 : Shape := ⟨2, ![400, 40]⟩
abbrev S400x128 : Shape := ⟨2, ![400, 128]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x128, .f32⟩
  | .hbm, ⟨7, _⟩ => ⟨S1x40, .f32⟩
  | .hbm, ⟨8, _⟩ => ⟨S10000x40, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x40, .f32⟩
  | .local _ .vmem, ⟨6, _⟩ => ⟨S1x40, .f32⟩
  | .local _ .vmem, ⟨7, _⟩ => ⟨S400x40, .f32⟩
  | .local _ .vmem, ⟨8, _⟩ => ⟨S400x40, .f32⟩
  | .local _ .vmem, ⟨9, _⟩ => ⟨S10000x128, .f32⟩
  | .local _ .vmem, ⟨10, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c24_i32 : BitVec 32 := 24#32
  let v2 : BitVec 32 := Scalar.subi c24_i32 arg1
  let v3 : BitVec 32 := Scalar.muli arg0 v2
  let v4 : BitVec 32 := Scalar.addi v1 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi c24_i32 arg1
  let v1 : BitVec 32 := Scalar.muli arg0 v0
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x40_S128x40_0_0 : ∀ a, (![0, 0] : Fin 2 → Nat) a + S128x40.size a ≤ S128x40.size a
  h_S128x40 : 0 < S128x40.numel
  h_S400x40 : 0 < S400x40.numel
  shapeCasts_S400x40_S400x40 : S400x40.ShapeCasts S400x40
  inb_S10000x40_S10000x40_0_0 : ∀ a, (![0, 0] : Fin 2 → Nat) a + S10000x40.size a ≤ S10000x40.size a
  h_S10000x40 : 0 < S10000x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x40_S400x40_1_0_0_1_n_n_wf : DotDims.WF S400x128 S128x40 S400x40 [1] [0] [0] [1] [] []
  dot_S400x10000_S10000x40_S400x40_1_0_0_1_n_n_wf : DotDims.WF S400x10000 S10000x40 S400x40 [1] [0] [0] [1] [] []
  hrank0 : 0 < grid0.rank
  k0_off1_inb : ∀ i : grid0.Coords, ∀ (k0_h2 : k0_cond2 i = 1#1), ∀ a, (k0_off1 i) a + S400x40.size a ≤ S10000x40.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x40.size a ≤ S128x40.size a
  hwx0_4 : ∀ i : grid0.Coords, EltTy.bits .f32 = 32 ∨ (Rect.block (s := S128x40) S128x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x40.size a ≤ S10000x40.size a
  hwx0_6 : ∀ i : grid0.Coords, EltTy.bits .f32 = 32 ∨ (Rect.block (s := S10000x40) S400x40.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x40.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x40, .f32⟩
  | .hbm, ⟨15, _⟩ => ⟨S10000x40, .f32⟩
  | .hbm, ⟨16, _⟩ => ⟨S1x40, .f32⟩
  | .hbm, ⟨17, _⟩ => ⟨S10000x40, .f32⟩
  | .hbm, ⟨18, _⟩ => ⟨S10000x40, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x40, .f32⟩
  | .hbm, ⟨26, _⟩ => ⟨S10000x40, .f32⟩
  | .hbm, ⟨27, _⟩ => ⟨S10000x40, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x40, .f32⟩
  | .hbm, ⟨33, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.BRuns.lean ====
/-
  The body of the fused graph-convolution kernel, run once for each way its three conditionals can fall at a grid
  point: the first point (x · W₁ is stored into the first scratch matrix, then 400 rows of the second support matrix
  into the second), the other points of the first phase (those 400 rows alone), and the points of the second phase
  (400 rows of the log-softmax into the output block). Each run holds every buffer whole, at contents NAMED before and
  after: what a store leaves is the payload of the values the loads read — a whole-buffer store leaves its payload, and
  a store of 400 whole rows leaves its payload on those rows and the old contents on the others.
-/
import proofs.«122475_g28243704939219_cont_9to1_2045_20_alg».proof.Proof.Gen.Kernel.Frame
import proofs.«122475_g28243704939219_cont_9to1_2045_20_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The three ways the body runs

The grid is (phase, row block) = (2, 25), fifty points. The body has three conditionals on the point: at the first point
alone it stores x · W₁ whole into the first scratch matrix; at every point of the first phase it stores, into rows
[400 t, 400 t + 400) of the second scratch matrix, the rectified first convolution of the adjacency panel times W₂; at
every point of the second phase it stores the log-softmax of the second convolution of the panel whole into the output
block. Each run is stated on whole memrefs at NAMED contents: the inputs and the scratch matrices come back as they
were except for what the point stores, and what it stores is the payload of the values it loaded. -/

/-- Both coordinates zero, spelt as the printed rectangles spell it. -/
theorem hz2 : (![0, 0] : Fin 2 → ℕ) = fun _ => 0 := by
  funext a; match a with | ⟨0, _⟩ => rfl | ⟨1, _⟩ => rfl

/-- The first conditional's condition: both grid coordinates are zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem condFirst_iff : ∀ t : Fin cfg0.N, condFirst (grid0.coords t) ↔ t.val = 0 :=
  (by decide +kernel : ∀ t : Fin grid0.N, condFirst (grid0.coords t) ↔ t.val = 0)
/-- The first phase is the points below 25, -/
theorem firstPhase_iff : ∀ t : Fin cfg0.N, k0_cond2 (grid0.coords t) = 1#1 ↔ t.val < 25 :=
  (by decide +kernel : ∀ t : Fin grid0.N, k0_cond2 (grid0.coords t) = 1#1 ↔ t.val < 25)
/-- the second phase the points from 25 on. -/
theorem secondPhase_iff : ∀ t : Fin cfg0.N, k0_cond3 (grid0.coords t) = 1#1 ↔ 25 ≤ t.val :=
  (by decide +kernel : ∀ t : Fin grid0.N, k0_cond3 (grid0.coords t) = 1#1 ↔ 25 ≤ t.val)
/-- Point t of the first phase stores at row 400 t, column 0 of the second scratch matrix. -/
theorem rowOffset_eq : ∀ t : Fin cfg0.N, t.val < 25 → k0_off1 (grid0.coords t) = ![400 * t.val, 0] :=
  (by decide +kernel : ∀ t : Fin grid0.N, t.val < 25 → k0_off1 (grid0.coords t) = ![400 * t.val, 0])

set_option maxHeartbeats 1000000 in
/-- THE SECOND PHASE. With the second scratch matrix at `xs1`, the body leaves in the output block the third payload of the
    adjacency panel, `xs1` and the bias row; everything else is as it was. -/
theorem run_second_phase (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : ¬k0_cond2 i = 1#1) (hc2 : k0_cond3 i = 1#1)
    (x0 : Vec F S10000x128 .f32) (x1 : Vec F S400x10000 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero hz2 inb_S400x40_S400x40_0_0 y⟩), View.canon_unit_zero hz2]
    simp only [View.readAt_eq_ld, harg2.read_unread, harg3.read_unread, harg4.read_unread, harg5.read_unread, harg6.read_unread, harg7.read_unread, harg9.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2]
  isplitl [HS0]
  · iexists _; isplitr; · ipureintro; exact harg9.read_unread _
    iexact HS0
  iexists _; isplitr; · ipureintro; exact harg10.read_unread _
  iexact HS1

set_option maxHeartbeats 1000000 in
/-- THE FIRST PHASE AFTER ITS FIRST POINT. With the first scratch matrix at `xs0` and the second at `xs1`, the body
    overwrites rows [o, o + 400) of the second with the second payload of the adjacency panel, `xs0`, the bias row and W₂,
    and leaves its other rows, and everything else, as they were. -/
theorem run_first_phase (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : k0_cond2 i = 1#1) (hc2 : ¬k0_cond3 i = 1#1) (o : ℕ) (hoff : k0_off1 i = ![o, 0])
    (x0 : Vec F S10000x128 .f32) (x1 : Vec F S400x10000 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (∃ d' : Vec F S10000x40 .f32,
              ⌜(∀ (y : S10000x40.Idx) (x : S400x40.Idx), (y 0).val = o + (x 0).val → (y 1).val = (x 1).val → d' y = k0_pay2 x1 xs0 x3 x4 x)
                ∧ (∀ y : S10000x40.Idx, ((y 0).val < o ∨ o + 400 ≤ (y 0).val) → d' y = xs1 y)⌝
              ∗ owns (c : Thread nD τ) arg10 fullShare d')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; · ipureintro; exact harg9.read_unread _
    iexact HS0
  iexists _; isplitr; swap
  · iexists _; isplitr; swap; · iexact HS1
    ipureintro; rfl
  ipureintro
  refine ⟨fun y x h0 h1 => ?_, fun y h => ?_⟩
  · exact View.read_writes_cons_rows_of_mem arg10.view _ _ _ [] y x hoff h0 h1
  · exact (View.read_writes_cons_rows_of_not_mem arg10.view _ _ _ [] y hoff rfl h).trans (congrFun (harg10.read_unread xs1) y)

set_option maxHeartbeats 1000000 in
/-- THE FIRST POINT. Whatever the first scratch matrix held, the body stores the first payload of x and W₁ whole into
    it, reads it back, and then does what every point of the first phase does. -/
theorem run_first_point (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : condFirst i) (hc1 : k0_cond2 i = 1#1) (hc2 : ¬k0_cond3 i = 1#1) (o : ℕ) (hoff : k0_off1 i = ![o, 0])
    (x0 : Vec F S10000x128 .f32) (x1 : Vec F S400x10000 .f32) (x2 : Vec F S128x128 .f32) (x3 : Vec F S1x128 .f32) (x4 : Vec F S128x40 .f32) (x5 : Vec F S1x40 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (k0_pay1 x0 x2)
            ∗ (∃ d' : Vec F S10000x40 .f32,
              ⌜(∀ (y : S10000x40.Idx) (x : S400x40.Idx), (y 0).val = o + (x 0).val → (y 1).val = (x 1).val → d' y = k0_pay2 x1 (k0_pay1 x0 x2) x3 x4 x)
                ∧ (∀ y : S10000x40.Idx, ((y 0).val < o ∨ o + 400 ≤ (y 0).val) → d' y = xs1 y)⌝
              ∗ owns (c : Thread nD τ) arg10 fullShare d')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  sl_unfold_words
  simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2, View.readCov_unit_zero (S := S10000x128) arg9.view hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; swap; · iexact HS0
    ipureintro
    rw [View.read_writes_eq_canon _ _ _ (fun y => ⟨_, List.mem_singleton_self _, View.mem_set_unit_zero hz2 inb_S10000x128_S10000x128_0_0 y⟩), View.canon_unit_zero hz2]
  iexists _; isplitr; swap
  · iexists _; isplitr; swap; · iexact HS1
    ipureintro; rfl
  ipureintro
  refine ⟨fun y x h0 h1 => ?_, fun y h => ?_⟩
  · exact View.read_writes_cons_rows_of_mem arg10.view _ _ _ [] y x hoff h0 h1
  · exact (View.read_writes_cons_rows_of_not_mem arg10.view _ _ _ [] y hoff rfl h).trans (congrFun (harg10.read_unread xs1) y)

end Cert.Kernel.Body

end
-- ==== Proof.LibRelArr.lean ====
/-
  A windowed array after the write-backs of RELATIONAL proof data, read at an index.

  Relational proof data say of each write-back only that it writes the moved part of SOME contents the body may have
  left (`RDat.ArrAt`, `RDat.ArrStep`). Suppose that at the points called `good` everything the body may leave is, cut,
  the point's block of ONE whole-array contents `G`. Then an index which a good flushing point `t` below `n` covers, and
  after which every flushing point is good, reads `G` after the write-backs below `n`: the write-backs before `t` are
  overwritten at that index, and the later ones either miss it or write `G` there again. Write-backs at points that
  are not good (a block written back before the body has stored anything into its buffer) may write anything: they are
  only required to come before the good one.
-/
import Idealize.ShloMosaic.Lib.Pipeline.Value

noncomputable section

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An index under a good flushing point's block, every later flushing point good too, reads `G` after the
    write-backs below `n` — whatever the earlier write-backs wrote. -/
theorem RDat.arrAt_apply_of_good [∀ e, Nonempty (Val e)] (w : Fin cfg.W)
    (G : Buf Val ((cfg.win w).arr.view.loc (c.tc : Thread nD τ))) (good : Fin cfg.N → Prop)
    (hG : ∀ (t : Fin cfg.N) (X : (cfg.win w).block.Idx → Val (cfg.win w).elt), (cfg.win w).flush t = true → good t →
      rd.Leaves w t X → (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx), t.val < n →
        (cfg.win w).flush t = true → good t → i ∈ ((cfg.win w).blk t).view.set →
        (∀ t' : Fin cfg.N, t.val < t'.val → (cfg.win w).flush t' = true → good t') → F i = G i
  | 0, _, _, _, _, ht, _, _, _, _ => absurd ht (Nat.not_lt_zero _)
  | n + 1, F, hF, t, i, ht, hf, hgt, hi, hlater => by
    by_cases hn : n < cfg.N
    swap
    · -- past the grid nothing changes, and `t` is below `n`
      rw [rd.ArrAt_stable w (n + 1) (by omega), ← rd.ArrAt_stable w n (by omega)] at hF
      exact RDat.arrAt_apply_of_good w G good hG n F hF t i (by have := t.isLt; omega) hf hgt hi hlater
    rw [show n + 1 = (⟨n, hn⟩ : Fin cfg.N).val + 1 from rfl, rd.ArrAt_succ] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.setOn Finset.univ
      · -- under point `n`'s block: that point is `t` or a later flushing point, good either way
        have hgn : good ⟨n, hn⟩ := by
          by_cases e : t.val = n
          · have : t = ⟨n, hn⟩ := Fin.ext e
            exact this ▸ hgt
          · exact hlater ⟨n, hn⟩ (by show t.val < n; omega) hfn
        rw [hG _ X hfn hgn hX, View.write_read_eq_piecewise, Finset.piecewise_eq_of_mem _ _ _ hin]
      · -- not under point `n`'s block: then `t` is an earlier point
        rw [View.write_of_not_mem _ _ _ hin]
        have htn : t.val ≠ n := fun e => hin (by
          rw [View.setOn_univ]; have : t = ⟨n, hn⟩ := Fin.ext e; exact this ▸ hi)
        exact RDat.arrAt_apply_of_good w G good hG n G₀ hG₀ t i (by omega) hf hgt hi hlater
    · rw [if_neg hfn] at hF
      have htn : t.val ≠ n := fun e => hfn (by have : t = ⟨n, hn⟩ := Fin.ext e; exact this ▸ hf)
      exact RDat.arrAt_apply_of_good w G good hG n F hF t i (by omega) hf hgt hi hlater

end Idealize.ShloMosaic.Pipeline

end
-- ==== Proof.BData.lean ====
/-
  What the grid's fifty points compute, named over the windows' blocks, and the proof data of the pipeline.

  The first scratch matrix carries x · W₁ from the first point on; the second gathers the second support matrix 400
  rows per point of the first phase and is complete when the second phase begins; each point of the second phase leaves
  400 rows of the result in the output block. Between points the invariant says exactly that: after n points the rows
  of the second scratch matrix below 400 n are the second support matrix's. The inputs' buffers hold their blocks at
  every point. Of the output block's buffer the data say what the body leaves only in the second phase — in the first
  phase the body stores nothing there, and the buffer is written back once in that state — so that window's data are a
  RELATION between what the body finds and what it leaves, not a named contents.
-/
import proofs.«122475_g28243704939219_cont_9to1_2045_20_alg».proof.Proof.BRuns
import proofs.«122475_g28243704939219_cont_9to1_2045_20_alg».proof.Proof.LibRelArr
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute, named over the windows' blocks

Window 0 is x, window 1 the adjacency panel of the point, windows 2–5 W₁, b₁, W₂, b₂ (each one block, the whole
array), window 6 the output block. The first scratch matrix holds `s1` = x · W₁ from the first point on; rows
[400 t, 400 t + 400) of the second hold `s2Blk t` once point t of the first phase has run, so that after the first
phase it holds `s2` whole; point t of the second phase leaves `outBlk t` in the output block, which is rows
[400 (49 − t), 400 (49 − t) + 400) of `outArr`. -/

/-- Point `n` of the fifty. -/
def pt (n : ℕ) (h : n < 50) : Fin cfg0.N := ⟨n, lt_of_lt_of_eq h N_0.symm⟩

def xBlk (c : Dev nD) (t : Fin cfg0.N) : Vec F S10000x128 .f32 := iblk m c 0 t
def adjBlk (c : Dev nD) (t : Fin cfg0.N) : Vec F S400x10000 .f32 := iblk m c 1 t
def w1Blk (c : Dev nD) (t : Fin cfg0.N) : Vec F S128x128 .f32 := iblk m c 2 t
def b1Blk (c : Dev nD) (t : Fin cfg0.N) : Vec F S1x128 .f32 := iblk m c 3 t
def w2Blk (c : Dev nD) (t : Fin cfg0.N) : Vec F S128x40 .f32 := iblk m c 4 t
def b2Blk (c : Dev nD) (t : Fin cfg0.N) : Vec F S1x40 .f32 := iblk m c 5 t

/-- x · W₁, as the first point stores it. -/
def s1 (c : Dev nD) : Vec F S10000x128 .f32 := k0_pay1 (xBlk m c (pt 0 (by omega))) (w1Blk m c (pt 0 (by omega)))

/-- The rows of the second support matrix that point `t` of the first phase stores. -/
def s2Blk (c : Dev nD) (t : Fin cfg0.N) : Vec F S400x40 .f32 :=
  k0_pay2 (adjBlk m c t) (s1 m c) (b1Blk m c t) (w2Blk m c t)

/-- The second support matrix whole: row `r` is row `r % 400` of what point `r / 400` stores. -/
def s2 (c : Dev nD) : Vec F S10000x40 .f32 := fun y =>
  s2Blk m c (pt ((y 0).val / 400) (by have h : (y 0).val < 10000 := (y 0).isLt; omega))
    (ValueIdx.ix2 ⟨(y 0).val % 400, Nat.mod_lt _ (by omega)⟩ (y 1))

/-- What point `t` of the second phase leaves in the output block. -/
def outBlk (c : Dev nD) (t : Fin cfg0.N) : Vec F S400x40 .f32 := k0_pay3 (adjBlk m c t) (s2 m c) (b2Blk m c t)

/-- The result array: row `r` is row `r % 400` of what point `49 − r / 400` leaves. -/
def outArr (c : Dev nD) : Vec F S10000x40 .f32 := fun y =>
  outBlk m c (pt (49 - (y 0).val / 400) (by omega)) (ValueIdx.ix2 ⟨(y 0).val % 400, Nat.mod_lt _ (by omega)⟩ (y 1))

/-- A row of the second support matrix, read where point `t` of the first phase stores it. -/
theorem s2_rows (c : Dev nD) (t : Fin cfg0.N) (y : S10000x40.Idx) (x : S400x40.Idx)
    (h0 : (y 0).val = 400 * t.val + (x 0).val) (h1 : (y 1).val = (x 1).val) :
    s2 m c y = k0_pay2 (iblk m c 1 t) (s1 m c) (iblk m c 3 t) (iblk m c 4 t) x := by
  have hx : (x 0).val < 400 := (x 0).isLt
  have e : pt ((y 0).val / 400) (by have h : (y 0).val < 10000 := (y 0).isLt; omega) = t :=
    Fin.ext (by show (y 0).val / 400 = t.val; omega)
  have ex : (ValueIdx.ix2 ⟨(y 0).val % 400, Nat.mod_lt _ (by omega)⟩ (y 1) : S400x40.Idx) = x :=
    funext fun a => Fin.ext (by
      match a with
      | ⟨0, _⟩ => show (y 0).val % 400 = (x 0).val; omega
      | ⟨1, _⟩ => exact h1)
  unfold s2; rw [e, ex]; rfl

/-! ## The scratch matrices between points -/

/-- The two scratch operands, whole scoped buffers of the kernel's own. -/
abbrev scM0 : Memref sig .tc .vmem S10000x128 .f32 := Memref.whole cc0_scratch0
abbrev scM1 : Memref sig .tc .vmem S10000x40 .f32 := Memref.whole cc0_scratch1

/-- What the region is entered with besides the windows: both scratch matrices at anything, the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- THE INVARIANT before point `n`: nothing known before the first point; afterwards the first scratch matrix holds
    x · W₁ and the rows of the second below 400 n are the second support matrix's (from n = 25 on: all of them). -/
def PhiS (c : Dev nD) : ℕ → sProp 𝕄
  | 0 => Pipeline.ΦA spec0 c
  | n + 1 => iprop(iprop(owns (c : Thread nD τ) scM0 fullShare (s1 m c)
      ∗ (∃ d : Vec F S10000x40 .f32, ⌜∀ y : S10000x40.Idx, (y 0).val < 400 * (n + 1) → d y = s2 m c y⌝ ∗ owns (c : Thread nD τ) scM1 fullShare d))
      ∗ (∃ r, prngReg c r))

theorem PhiS_pos (c : Dev nD) (n : ℕ) (hn : n ≠ 0) :
    PhiS m c n = iprop(iprop(owns (c : Thread nD τ) scM0 fullShare (s1 m c)
      ∗ (∃ d : Vec F S10000x40 .f32, ⌜∀ y : S10000x40.Idx, (y 0).val < 400 * n → d y = s2 m c y⌝ ∗ owns (c : Thread nD τ) scM1 fullShare d))
      ∗ (∃ r, prngReg c r)) := by
  cases n with
  | zero => exact absurd rfl hn
  | succ n => rfl

/-! ## The proof data -/

/-- Exact data for the six inputs (each buffer holds its block after the body as before it); the output's contents
    are not named here: its relation is given below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val
  q _ := fullShare
  owed _ := 0

/-- What the body may leave in the output block's buffer at point `t`: in the second phase exactly `outBlk t`; in the
    first phase anything (it stores nothing there, and the buffer is written back once before it has). -/
def outRel (c : Dev nD) (t : Fin cfg0.N) (_Y X : (cfg0.win 6).block.Idx → Elt F (cfg0.win 6).elt) : Prop :=
  25 ≤ t.val → X = outBlk m c t

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (outRel m c)

/-- The relational proof data the launch is made with. -/
def rd (c : Dev nD) : RDat τ (Elt F) Unit ℕ (UR sig nD τ) ℕ cfg0 c := (dat m c).toR.override (ovr m c)

theorem A_eq (c : Dev nD) (w : Fin cfg0.W) : (rd m c).A w = V m c (Pipeline.arrRef spec0 w) := by
  show (dat m c).A w = _; dsimp only [dat]

theorem datA_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

/-- Whatever the body may find in an input's buffer is the input's block at the point. -/
theorem found_0 (c : Dev nD) (t : Fin cfg0.N) (Y) (h : (rd m c).Finds 0 t Y) : Y = iblk m c 0 t := by
  obtain ⟨d, rfl⟩ := (dat m c).toR_finds 0 t Y (((dat m c).toR.override_finds (ovr := ovr m c) rfl t Y).mp h)
  exact before0_0_of m (dat m c) (datA_eq m c 0) (after_0 m c) t d
theorem found_1 (c : Dev nD) (t : Fin cfg0.N) (Y) (h : (rd m c).Finds 1 t Y) : Y = iblk m c 1 t := by
  obtain ⟨d, rfl⟩ := (dat m c).toR_finds 1 t Y (((dat m c).toR.override_finds (ovr := ovr m c) rfl t Y).mp h)
  exact before0_1_of m (dat m c) (datA_eq m c 1) (after_1 m c) t d
theorem found_2 (c : Dev nD) (t : Fin cfg0.N) (Y) (h : (rd m c).Finds 2 t Y) : Y = iblk m c 2 t := by
  obtain ⟨d, rfl⟩ := (dat m c).toR_finds 2 t Y (((dat m c).toR.override_finds (ovr := ovr m c) rfl t Y).mp h)
  exact before0_2_of m (dat m c) (datA_eq m c 2) (after_2 m c) t d
theorem found_3 (c : Dev nD) (t : Fin cfg0.N) (Y) (h : (rd m c).Finds 3 t Y) : Y = iblk m c 3 t := by
  obtain ⟨d, rfl⟩ := (dat m c).toR_finds 3 t Y (((dat m c).toR.override_finds (ovr := ovr m c) rfl t Y).mp h)
  exact before0_3_of m (dat m c) (datA_eq m c 3) (after_3 m c) t d
theorem found_4 (c : Dev nD) (t : Fin cfg0.N) (Y) (h : (rd m c).Finds 4 t Y) : Y = iblk m c 4 t := by
  obtain ⟨d, rfl⟩ := (dat m c).toR_finds 4 t Y (((dat m c).toR.override_finds (ovr := ovr m c) rfl t Y).mp h)
  exact before0_4_of m (dat m c) (datA_eq m c 4) (after_4 m c) t d
theorem found_5 (c : Dev nD) (t : Fin cfg0.N) (Y) (h : (rd m c).Finds 5 t Y) : Y = iblk m c 5 t := by
  obtain ⟨d, rfl⟩ := (dat m c).toR_finds 5 t Y (((dat m c).toR.override_finds (ovr := ovr m c) rfl t Y).mp h)
  exact before0_5_of m (dat m c) (datA_eq m c 5) (after_5 m c) t d

/-- An input's buffer handed back at its block is what its relation asks. -/
theorem left_0 (c : Dev nD) (t : Fin cfg0.N) (Y) : (rd m c).after 0 t Y (iblk m c 0 t) := by
  show (dat m c).Leaves 0 t (iblk m c 0 t)
  exact (Dat.Leaves.live_iff (dat m c) (.inl rfl)).mpr (after_0 m c t).symm
theorem left_1 (c : Dev nD) (t : Fin cfg0.N) (Y) : (rd m c).after 1 t Y (iblk m c 1 t) := by
  show (dat m c).Leaves 1 t (iblk m c 1 t)
  exact (Dat.Leaves.live_iff (dat m c) (.inl rfl)).mpr (after_1 m c t).symm
theorem left_2 (c : Dev nD) (t : Fin cfg0.N) (Y) : (rd m c).after 2 t Y (iblk m c 2 t) := by
  show (dat m c).Leaves 2 t (iblk m c 2 t)
  exact (Dat.Leaves.live_iff (dat m c) (.inl rfl)).mpr (after_2 m c t).symm
theorem left_3 (c : Dev nD) (t : Fin cfg0.N) (Y) : (rd m c).after 3 t Y (iblk m c 3 t) := by
  show (dat m c).Leaves 3 t (iblk m c 3 t)
  exact (Dat.Leaves.live_iff (dat m c) (.inl rfl)).mpr (after_3 m c t).symm
theorem left_4 (c : Dev nD) (t : Fin cfg0.N) (Y) : (rd m c).after 4 t Y (iblk m c 4 t) := by
  show (dat m c).Leaves 4 t (iblk m c 4 t)
  exact (Dat.Leaves.live_iff (dat m c) (.inl rfl)).mpr (after_4 m c t).symm
theorem left_5 (c : Dev nD) (t : Fin cfg0.N) (Y) : (rd m c).after 5 t Y (iblk m c 5 t) := by
  show (dat m c).Leaves 5 t (iblk m c 5 t)
  exact (Dat.Leaves.live_iff (dat m c) (.inl rfl)).mpr (after_5 m c t).symm

/-- In the first phase the output's relation asks nothing. -/
theorem left_out_first (c : Dev nD) (t : Fin cfg0.N) (h : t.val < 25) (Y X) : (rd m c).after 6 t Y X := by
  show outRel m c t Y X
  intro h'; omega
/-- In the second phase it asks for `outBlk t`. -/
theorem left_out_second (c : Dev nD) (t : Fin cfg0.N) (Y) : (rd m c).after 6 t Y (outBlk m c t) := by
  show outRel m c t Y (outBlk m c t)
  intro _; rfl

end Cert.Kernel.Body

end
-- ==== Proof.BOblig.lean ====
/-
  The body obligation of the fused graph-convolution kernel at every grid point, and the launch.

  At a point the inputs' buffers hold their blocks; the invariant hands the body the two scratch matrices — at anything
  before the first point, afterwards the first at x · W₁ and the second with its rows below 400 t at the second
  support matrix's —; the point is the first, another of the first phase, or one of the second phase, and the
  corresponding run applies; the invariant closes with 400 more rows known (first phase) or unchanged (second phase).
  The launch theorem for relational proof data then gives the run of @main: every windowed array at some contents the
  data allow after every write-back, every other unscoped buffer as the region found it.
-/
import proofs.«122475_g28243704939219_cont_9to1_2045_20_alg».proof.Proof.BData
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point, the launch, and the arrays after the run -/

/-- At the first point the first scratch matrix is stored from that point's own blocks of x and W₁. -/
theorem s1_eq (c : Dev nD) (t : Fin cfg0.N) (hz : t.val = 0) : s1 m c = k0_pay1 (iblk m c 0 t) (iblk m c 2 t) := by
  obtain ⟨n, hn⟩ := t
  obtain rfl : n = 0 := hz
  rfl

/-- One point of the first phase extends the rows of the second scratch matrix known to be the second support
    matrix's by the 400 rows it stores: the rows below are kept, the stored rows are `s2`'s by `s2_rows`. -/
theorem rows_step (c : Dev nD) (t : Fin cfg0.N) (d d' : Vec F S10000x40 .f32)
    (hd : ∀ y : S10000x40.Idx, (y 0).val < 400 * t.val → d y = s2 m c y)
    (hd' : (∀ (y : S10000x40.Idx) (x : S400x40.Idx), (y 0).val = 400 * t.val + (x 0).val → (y 1).val = (x 1).val →
              d' y = k0_pay2 (iblk m c 1 t) (s1 m c) (iblk m c 3 t) (iblk m c 4 t) x)
          ∧ (∀ y : S10000x40.Idx, ((y 0).val < 400 * t.val ∨ 400 * t.val + 400 ≤ (y 0).val) → d' y = d y)) :
    ∀ y : S10000x40.Idx, (y 0).val < 400 * (t.val + 1) → d' y = s2 m c y := by
  intro y hy
  by_cases hlt : (y 0).val < 400 * t.val
  · rw [hd'.2 y (.inl hlt)]; exact hd y hlt
  · have hx0 : (y 0).val - 400 * t.val < 400 := by omega
    have e0 : (y 0).val = 400 * t.val + ((ValueIdx.ix2 ⟨(y 0).val - 400 * t.val, hx0⟩ (y 1) : S400x40.Idx) 0).val := by
      show (y 0).val = 400 * t.val + ((y 0).val - 400 * t.val); omega
    have e1 : (y 1).val = ((ValueIdx.ix2 ⟨(y 0).val - 400 * t.val, hx0⟩ (y 1) : S400x40.Idx) 1).val := rfl
    rw [hd'.1 y _ e0 e1, s2_rows m c t y _ e0 e1]

set_option maxHeartbeats 4000000 in
/-- THE BODY AT A POINT, the six inputs' buffers at their blocks: the first point, the rest of the first phase, the
    second phase — each the corresponding run, the invariant opened before it and closed after it. -/
theorem sound_body (c : Dev nD) (t : Fin cfg0.N)
    (Y0 : (cfg0.win 0).block.Idx → Elt F (cfg0.win 0).elt) (Y1 : (cfg0.win 1).block.Idx → Elt F (cfg0.win 1).elt)
    (Y2 : (cfg0.win 2).block.Idx → Elt F (cfg0.win 2).elt) (Y3 : (cfg0.win 3).block.Idx → Elt F (cfg0.win 3).elt)
    (Y4 : (cfg0.win 4).block.Idx → Elt F (cfg0.win 4).elt) (Y5 : (cfg0.win 5).block.Idx → Elt F (cfg0.win 5).elt)
    (Y6 : (cfg0.win 6).block.Idx → Elt F (cfg0.win 6).elt)
    (e0 : Y0 = iblk m c 0 t) (e1 : Y1 = iblk m c 1 t) (e2 : Y2 = iblk m c 2 t) (e3 : Y3 = iblk m c 3 t)
    (e4 : Y4 = iblk m c 4 t) (e5 : Y5 = iblk m c 5 t) :
    iprop((rd m c).Φ t.castSucc ∗ (rd m c).owesAt () t.castSucc
      ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6)
    ⊢ wp frame (wpE (defs₀ (F := F)) Variants.none c none) Set.univ (bodyAt0 t) (fun _ =>
      iprop((rd m c).Φ t.succ ∗ (rd m c).owesAt () t.succ
        ∗ (∃ X, ⌜(rd m c).after 0 t Y0 X⌝ ∗ owns (c : Thread nD τ) (st0_0 t) fullShare X)
        ∗ (∃ X, ⌜(rd m c).after 1 t Y1 X⌝ ∗ owns (c : Thread nD τ) (st0_1 t) fullShare X)
        ∗ (∃ X, ⌜(rd m c).after 2 t Y2 X⌝ ∗ owns (c : Thread nD τ) (st0_2 t) fullShare X)
        ∗ (∃ X, ⌜(rd m c).after 3 t Y3 X⌝ ∗ owns (c : Thread nD τ) (st0_3 t) fullShare X)
        ∗ (∃ X, ⌜(rd m c).after 4 t Y4 X⌝ ∗ owns (c : Thread nD τ) (st0_4 t) fullShare X)
        ∗ (∃ X, ⌜(rd m c).after 5 t Y5 X⌝ ∗ owns (c : Thread nD τ) (st0_5 t) fullShare X)
        ∗ (∃ X, ⌜(rd m c).after 6 t Y6 X⌝ ∗ owns (c : Thread nD τ) (st0_6 t) fullShare X))) := by
  subst e0 e1 e2 e3 e4 e5
  have hN : t.val < 50 := lt_of_lt_of_eq t.isLt N_0
  rw [show (rd m c).owesAt () t.succ = (rd m c).owesAt () t.castSucc from rfl]
  rw [show (rd m c).Φ t.castSucc = PhiS m c t.val from rfl, show (rd m c).Φ t.succ = PhiS m c (t.val + 1) from rfl]
  rw [PhiS_pos m c (t.val + 1) (Nat.succ_ne_zero _)]
  unfold bodyAt0
  by_cases h1 : t.val < 25
  · have hc1 : k0_cond2 (grid0.coords t) = 1#1 := (firstPhase_iff t).mpr h1
    have hc2 : ¬k0_cond3 (grid0.coords t) = 1#1 := fun h => by have := (secondPhase_iff t).mp h; omega
    have hoff : k0_off1 (grid0.coords t) = ![400 * t.val, 0] := rowOffset_eq t h1
    by_cases hz : t.val = 0
    · have hc0 : condFirst (grid0.coords t) := (condFirst_iff t).mpr hz
      rw [show PhiS m c t.val = Pipeline.ΦA spec0 c from by rw [hz]; rfl, PhiA_eq]
      iintro ⟨⟨⟨⟨%d0, HS0⟩, ⟨%d1, HS1⟩⟩, Hg⟩, Ho, H0, H1, H2, H3, H4, H5, H6⟩
      iapply (run_first_point c (grid0.coords t) _ _ _ _ _ _ _ _ _ _ _ _ _ _ _ _ _ _ hc0 hc1 hc2 (400 * t.val) hoff (iblk m c 0 t) (iblk m c 1 t) (iblk m c 2 t) (iblk m c 3 t) (iblk m c 4 t) (iblk m c 5 t) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      iintro ⟨H0, H1, H2, H3, H4, H5, ⟨%d6, H6⟩, HS0, ⟨%d', %hd', HS1⟩⟩
      rw [← s1_eq m c t hz] at hd'
      isplitl [HS0 HS1 Hg]
      · isplitl [HS0 HS1]
        · isplitl [HS0]
          · rw [s1_eq m c t hz]; iexact HS0
          iexists d'; isplitr
          · ipureintro; exact rows_step m c t d1 d' (fun y hy => by omega) hd'
          iexact HS1
        iexact Hg
      isplitl [Ho]; · iexact Ho
      isplitl [H0]
      · iexists _; isplitr; · ipureintro; exact left_0 m c t _
        iexact H0
      isplitl [H1]
      · iexists _; isplitr; · ipureintro; exact left_1 m c t _
        iexact H1
      isplitl [H2]
      · iexists _; isplitr; · ipureintro; exact left_2 m c t _
        iexact H2
      isplitl [H3]
      · iexists _; isplitr; · ipureintro; exact left_3 m c t _
        iexact H3
      isplitl [H4]
      · iexists _; isplitr; · ipureintro; exact left_4 m c t _
        iexact H4
      isplitl [H5]
      · iexists _; isplitr; · ipureintro; exact left_5 m c t _
        iexact H5
      iexists d6; isplitr; · ipureintro; exact left_out_first m c t h1 _ _
      iexact H6
    · have hc0 : ¬condFirst (grid0.coords t) := fun h => hz ((condFirst_iff t).mp h)
      rw [PhiS_pos m c t.val hz]
      iintro ⟨⟨⟨HS0, ⟨%d1, %hd1, HS1⟩⟩, Hg⟩, Ho, H0, H1, H2, H3, H4, H5, H6⟩
      iapply (run_first_phase c (grid0.coords t) _ _ _ _ _ _ _ _ _ _ _ _ _ _ _ _ _ _ hc0 hc1 hc2 (400 * t.val) hoff (iblk m c 0 t) (iblk m c 1 t) (iblk m c 2 t) (iblk m c 3 t) (iblk m c 4 t) (iblk m c 5 t) (s1 m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, ⟨%d', %hd', HS1⟩⟩
      isplitl [HS0 HS1 Hg]
      · isplitl [HS0 HS1]
        · isplitl [HS0]
          · iexact HS0
          iexists d'; isplitr
          · ipureintro; exact rows_step m c t d1 d' hd1 hd'
          iexact HS1
        iexact Hg
      isplitl [Ho]; · iexact Ho
      isplitl [H0]
      · iexists _; isplitr; · ipureintro; exact left_0 m c t _
        iexact H0
      isplitl [H1]
      · iexists _; isplitr; · ipureintro; exact left_1 m c t _
        iexact H1
      isplitl [H2]
      · iexists _; isplitr; · ipureintro; exact left_2 m c t _
        iexact H2
      isplitl [H3]
      · iexists _; isplitr; · ipureintro; exact left_3 m c t _
        iexact H3
      isplitl [H4]
      · iexists _; isplitr; · ipureintro; exact left_4 m c t _
        iexact H4
      isplitl [H5]
      · iexists _; isplitr; · ipureintro; exact left_5 m c t _
        iexact H5
      iexists d6; isplitr; · ipureintro; exact left_out_first m c t h1 _ _
      iexact H6
  · have h2 : 25 ≤ t.val := by omega
    have hc0 : ¬condFirst (grid0.coords t) := fun h => by have := (condFirst_iff t).mp h; omega
    have hc1 : ¬k0_cond2 (grid0.coords t) = 1#1 := fun h => h1 ((firstPhase_iff t).mp h)
    have hc2 : k0_cond3 (grid0.coords t) = 1#1 := (secondPhase_iff t).mpr h2
    rw [PhiS_pos m c t.val (by omega)]
    iintro ⟨⟨⟨HS0, ⟨%d1, %hd1, HS1⟩⟩, Hg⟩, Ho, H0, H1, H2, H3, H4, H5, H6⟩
    obtain rfl : d1 = s2 m c := funext fun y => hd1 y (by have hy : (y 0).val < 10000 := (y 0).isLt; omega)
    iapply (run_second_phase c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (s1 m c) (s2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (s2 m c); isplitr
        · ipureintro; exact fun _ _ => rfl
        iexact HS1
      iexact Hg
    isplitl [Ho]; · iexact Ho
    isplitl [H0]
    · iexists _; isplitr; · ipureintro; exact left_0 m c t _
      iexact H0
    isplitl [H1]
    · iexists _; isplitr; · ipureintro; exact left_1 m c t _
      iexact H1
    isplitl [H2]
    · iexists _; isplitr; · ipureintro; exact left_2 m c t _
      iexact H2
    isplitl [H3]
    · iexists _; isplitr; · ipureintro; exact left_3 m c t _
      iexact H3
    isplitl [H4]
    · iexists _; isplitr; · ipureintro; exact left_4 m c t _
      iexact H4
    isplitl [H5]
    · iexists _; isplitr; · ipureintro; exact left_5 m c t _
      iexact H5
    iexists (outBlk m c t); isplitr; · ipureintro; exact left_out_second m c t _
    iexact H6

/-- The body obligation of the relational proof data: whatever the inputs' buffers may be found at is their blocks. -/
theorem body_obligation (c : Dev nD) : (rd m c).BodyObligation (defs₀ (F := F)) Variants.none () Set.univ := fun t Y hY => by
  rw [bigSep_W0, bigSep_W0]
  exact sound_body m c t (Y 0) (Y 1) (Y 2) (Y 3) (Y 4) (Y 5) (Y 6) (found_0 m c t _ (hY 0)) (found_1 m c t _ (hY 1))
    (found_2 m c t _ (hY 2)) (found_3 m c t _ (hY 3)) (found_4 m c t _ (hY 4)) (found_5 m c t _ (hY 5))

/-- The region is entered with the invariant before the first point, -/
theorem hin (c : Dev nD) : Pipeline.ΦA spec0 c ⊢ (rd m c).Φ 0 := by
  rw [show (rd m c).Φ 0 = PhiS m c 0 from rfl, show PhiS m c 0 = Pipeline.ΦA spec0 c from rfl]
  try exact Idealize.SL.BI.Entails.refl _

/-- and the invariant after the last point gives the scratch matrices back at some contents. -/
theorem hout (c : Dev nD) : (rd m c).Φ (Fin.last cfg0.N) ⊢ Pipeline.ΦA spec0 c := by
  rw [show (rd m c).Φ (Fin.last cfg0.N) = PhiS m c (Fin.last cfg0.N).val from rfl,
    PhiS_pos m c _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- THE RUN: every weakly fair execution of @main terminates, every windowed array at some contents the proof data
    allow after every write-back, every other unscoped buffer as the region found it. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hin := hin m) (hout := hout m)

end Cert.Kernel.Body

end
-- ==== Proof.BFinal.lean ====
/-
  The arrays after the run of the fused graph-convolution kernel.

  The six argument arrays are as launched. The result array is written back block by block: once at the end of the
  first phase (block 0, from a buffer the body never stored into: anything), then by every point t of the second phase
  (block 49 − t, the point's 400 rows of the result). Each of the 25 row blocks is thus written by exactly one point of
  the second phase, after the idle write-back, and the array ends at `outArr`, whatever the idle write-back wrote.
-/
import proofs.«122475_g28243704939219_cont_9to1_2045_20_alg».proof.Proof.BOblig
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array after the run

The output window's block index is 0 throughout the first phase and 24 − (row block) in the second: its buffer is
written back once at the end of the first phase, holding nothing the body stored, and then at every point of the second
phase, point t writing rows [400 (49 − t), 400 (49 − t) + 400). Every row block is written by exactly one point of the
second phase, and all of those come after the one idle write-back: so the array ends at `outArr`. -/

/-- The output window's block index in the second phase, -/
theorem out_index : ∀ t : Fin cfg0.N, 25 ≤ t.val → win0_6.index t (0 : Fin 2) = 49 - t.val ∧ win0_6.index t (1 : Fin 2) = 0 :=
  (by decide +kernel : ∀ t : Fin grid0.N, 25 ≤ t.val → win0_6.index t (0 : Fin 2) = 49 - t.val ∧ win0_6.index t (1 : Fin 2) = 0)
/-- and every point of the second phase writes its block back. -/
theorem out_flush : ∀ t : Fin cfg0.N, 25 ≤ t.val → (cfg0.win 6).flush t = true :=
  (by decide +kernel : ∀ t : Fin grid0.N, 25 ≤ t.val → win0_6.flush t = true)

/-- An index of the result array is in point `t`'s block iff each coordinate is in the block's range on its axis. -/
theorem mem_out_blk (t : Fin cfg0.N) (i : S10000x40.Idx) :
    i ∈ ((cfg0.win 6).blk t).view.set ↔ ∀ a : Fin 2, win0_6.index t a * S400x40.size a ≤ (i a).val ∧ (i a).val < win0_6.index t a * S400x40.size a + S400x40.size a := by
  show i ∈ ((View.whole main_v2).slice (win0_6.rect t)).set ↔ _
  rw [View.set_slice_whole, Rect.mem_set_unit]
  exact Iff.rfl

/-- A row of the result array, read where point `t` of the second phase writes it. -/
theorem outArr_rows (c : Dev nD) (t : Fin cfg0.N) (ht : 25 ≤ t.val) (y : S10000x40.Idx) (x : S400x40.Idx)
    (h0 : (y 0).val = 400 * (49 - t.val) + (x 0).val) (h1 : (y 1).val = (x 1).val) :
    outArr m c y = outBlk m c t x := by
  have hN : t.val < 50 := lt_of_lt_of_eq t.isLt N_0
  have hx : (x 0).val < 400 := (x 0).isLt
  have e : pt (49 - (y 0).val / 400) (by omega) = t :=
    Fin.ext (by show 49 - (y 0).val / 400 = t.val; omega)
  have ex : (ValueIdx.ix2 ⟨(y 0).val % 400, Nat.mod_lt _ (by omega)⟩ (y 1) : S400x40.Idx) = x :=
    funext fun a => Fin.ext (by
      match a with
      | ⟨0, _⟩ => show (y 0).val % 400 = (x 0).val; omega
      | ⟨1, _⟩ => exact h1)
  unfold outArr; rw [e, ex]

/-- What point `t` of the second phase leaves in the output block is its block of the result array. -/
theorem outBlk_eq (c : Dev nD) (t : Fin cfg0.N) (ht : 25 ≤ t.val) (x : S400x40.Idx) :
    outBlk m c t x = outArr m c (((cfg0.win 6).blk t).view.emb x) := by
  obtain ⟨e0, e1⟩ := out_index t ht
  refine (outArr_rows m c t ht _ x ?_ ?_).symm
  · show win0_6.index t (0 : Fin 2) * 400 + 1 * (x 0).val = _
    rw [e0]; omega
  · show win0_6.index t (1 : Fin 2) * 40 + 1 * (x 1).val = _
    rw [e1]; omega

/-- THE RESULT ARRAY: whatever the relational proof data allow it to hold after every write-back is `outArr`. -/
theorem final_out (c : Dev nD) (Fv : Buf (Elt F) ((cfg0.win 6).arr.view.loc (c.tc : Thread nD τ)))
    (h : (rd m c).ArrAt 6 cfg0.N Fv) : Fv = outArr m c := by
  funext i
  have hi0 : (i 0).val < 10000 := (i 0).isLt
  have hi1 : (i 1).val < 40 := (i 1).isLt
  have hgood : 25 ≤ (pt (49 - (i 0).val / 400) (by omega)).val := by show 25 ≤ 49 - (i 0).val / 400; omega
  refine Pipeline.RDat.arrAt_apply_of_good (rd m c) 6 (outArr m c) (fun t => 25 ≤ t.val) ?_ cfg0.N Fv h
    (pt (49 - (i 0).val / 400) (by omega)) i (Fin.isLt _) (out_flush _ hgood) hgood ?_ ?_
  · intro t X _ hg hL
    obtain ⟨Y, -, hYX⟩ := hL
    have hX : X = outBlk m c t := hYX hg
    subst hX
    funext x
    exact outBlk_eq m c t hg x
  · rw [mem_out_blk]
    obtain ⟨e0, e1⟩ := out_index _ hgood
    intro a
    match a with
    | ⟨0, _⟩ =>
      show win0_6.index _ (0 : Fin 2) * 400 ≤ (i 0).val ∧ (i 0).val < win0_6.index _ (0 : Fin 2) * 400 + 400
      rw [e0]; show (49 - (49 - (i 0).val / 400)) * 400 ≤ (i 0).val ∧ (i 0).val < (49 - (49 - (i 0).val / 400)) * 400 + 400
      omega
    | ⟨1, _⟩ =>
      show win0_6.index _ (1 : Fin 2) * 40 ≤ (i 1).val ∧ (i 1).val < win0_6.index _ (1 : Fin 2) * 40 + 40
      rw [e1]; omega
  · intro t' ht' _
    show 25 ≤ t'.val
    have : 25 ≤ 49 - (i 0).val / 400 := hgood
    have h' : 49 - (i 0).val / 400 < t'.val := ht'
    omega

/-- THE RUN, READ: every weakly fair execution of @main terminates with the result array at `outArr` and the six
    argument arrays as launched (a staged argument is its window's array, which no write-back touches; b₁ and b₂, staged
    only through their reshaped copies, are among the buffers the region leaves alone). -/
theorem run_value : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨final_out m c _ ((h c).1 6),
      ((congrFun ((rd m c).ArrAt_in 0 rfl _) _).mp ((h c).1 0)).trans ((A_eq m c 0).trans (V_main_arg0 m c)),
      ((congrFun ((rd m c).ArrAt_in 1 rfl _) _).mp ((h c).1 1)).trans ((A_eq m c 1).trans (V_main_arg1 m c)),
      ((congrFun ((rd m c).ArrAt_in 2 rfl _) _).mp ((h c).1 2)).trans ((A_eq m c 2).trans (V_main_arg2 m c)),
      ((h c).2 main_arg3 (Pipeline.mem_restRefs_of main_arg3 (by decide) (by decide))).trans (V_main_arg3 m c),
      ((congrFun ((rd m c).ArrAt_in 4 rfl _) _).mp ((h c).1 4)).trans ((A_eq m c 4).trans (V_main_arg4 m c)),
      ((h c).2 main_arg5 (Pipeline.mem_restRefs_of main_arg5 (by decide) (by decide))).trans (V_main_arg5 m c)⟩)
    (run_main m ρ)

end Cert.Kernel.Body

end
-- ==== Proof.KRuns.lean ====
/-
  The body of the fused graph-convolution kernel, run once for each way its three conditionals can fall at a grid
  point: the first point (x · W₁ is stored into the first scratch matrix, then 400 rows of the second support matrix
  into the second), the other points of the first phase (those 400 rows alone), and the points of the second phase
  (400 rows of the log-softmax into the output block). Each run holds every buffer whole, at contents NAMED before and
  after: what a store leaves is the payload of the values the loads read — a whole-buffer store leaves its payload, and
  a store of 400 whole rows leaves its payload on those rows and the old contents on the others.
-/
import proofs.«122475_g28243704939219_cont_9to1_2045_20_alg».proof.Proof.Gen.KernelIdeal.Frame
import proofs.«122475_g28243704939219_cont_9to1_2045_20_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The three ways the body runs

The grid is (phase, row block) = (2, 25), fifty points. The body has three conditionals on the point: at the first point
alone it stores x · W₁ whole into the first scratch matrix; at every point of the first phase it stores, into rows
[400 t, 400 t + 400) of the second scratch matrix, the rectified first convolution of the adjacency panel times W₂; at
every point of the second phase it stores the log-softmax of the second convolution of the panel whole into the output
block. Each run is stated on whole memrefs at NAMED contents: the inputs and the scratch matrices come back as they
were except for what the point stores, and what it stores is the payload of the values it loaded. -/

/-- Both coordinates zero, spelt as the printed rectangles spell it. -/
theorem hz2 : (![0, 0] : Fin 2 → ℕ) = fun _ => 0 := by
  funext a; match a with | ⟨0, _⟩ => rfl | ⟨1, _⟩ => rfl

/-- The first conditional's condition: both grid coordinates are zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem condFirst_iff : ∀ t : Fin cfg0.N, condFirst (grid0.coords t) ↔ t.val = 0 :=
  (by decide +kernel : ∀ t : Fin grid0.N, condFirst (grid0.coords t) ↔ t.val = 0)
/-- The first phase is the points below 25, -/
theorem firstPhase_iff : ∀ t : Fin cfg0.N, k0_cond2 (grid0.coords t) = 1#1 ↔ t.val < 25 :=
  (by decide +kernel : ∀ t : Fin grid0.N, k0_cond2 (grid0.coords t) = 1#1 ↔ t.val < 25)
/-- the second phase the points from 25 on. -/
theorem secondPhase_iff : ∀ t : Fin cfg0.N, k0_cond3 (grid0.coords t) = 1#1 ↔ 25 ≤ t.val :=
  (by decide +kernel : ∀ t : Fin grid0.N, k0_cond3 (grid0.coords t) = 1#1 ↔ 25 ≤ t.val)
/-- Point t of the first phase stores at row 400 t, column 0 of the second scratch matrix. -/
theorem rowOffset_eq : ∀ t : Fin cfg0.N, t.val < 25 → k0_off1 (grid0.coords t) = ![400 * t.val, 0] :=
  (by decide +kernel : ∀ t : Fin grid0.N, t.val < 25 → k0_off1 (grid0.coords t) = ![400 * t.val, 0])

set_option maxHeartbeats 1000000 in
/-- THE SECOND PHASE. With the second scratch matrix at `xs1`, the body leaves in the output block the third payload of the
    adjacency panel, `xs1` and the bias row; everything else is as it was. -/
theorem run_second_phase (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : ¬k0_cond2 i = 1#1) (hc2 : k0_cond3 i = 1#1)
    (x0 : Vec F S10000x128 .f32) (x1 : Vec F S400x10000 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 xs1 x5) ∗ owns (c : Thread nD τ) arg9 fullShare xs0 ∗ owns (c : Thread nD τ) arg10 fullShare xs1) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero hz2 inb_S400x40_S400x40_0_0 y⟩), View.canon_unit_zero hz2]
    simp only [View.readAt_eq_ld, harg2.read_unread, harg3.read_unread, harg4.read_unread, harg5.read_unread, harg6.read_unread, harg7.read_unread, harg9.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2]
  isplitl [HS0]
  · iexists _; isplitr; · ipureintro; exact harg9.read_unread _
    iexact HS0
  iexists _; isplitr; · ipureintro; exact harg10.read_unread _
  iexact HS1

set_option maxHeartbeats 1000000 in
/-- THE FIRST PHASE AFTER ITS FIRST POINT. With the first scratch matrix at `xs0` and the second at `xs1`, the body
    overwrites rows [o, o + 400) of the second with the second payload of the adjacency panel, `xs0`, the bias row and W₂,
    and leaves its other rows, and everything else, as they were. -/
theorem run_first_phase (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : k0_cond2 i = 1#1) (hc2 : ¬k0_cond3 i = 1#1) (o : ℕ) (hoff : k0_off1 i = ![o, 0])
    (x0 : Vec F S10000x128 .f32) (x1 : Vec F S400x10000 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (∃ d' : Vec F S10000x40 .f32,
              ⌜(∀ (y : S10000x40.Idx) (x : S400x40.Idx), (y 0).val = o + (x 0).val → (y 1).val = (x 1).val → d' y = k0_pay2 x1 xs0 x3 x4 x)
                ∧ (∀ y : S10000x40.Idx, ((y 0).val < o ∨ o + 400 ≤ (y 0).val) → d' y = xs1 y)⌝
              ∗ owns (c : Thread nD τ) arg10 fullShare d')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; · ipureintro; exact harg9.read_unread _
    iexact HS0
  iexists _; isplitr; swap
  · iexists _; isplitr; swap; · iexact HS1
    ipureintro; rfl
  ipureintro
  refine ⟨fun y x h0 h1 => ?_, fun y h => ?_⟩
  · exact View.read_writes_cons_rows_of_mem arg10.view _ _ _ [] y x hoff h0 h1
  · exact (View.read_writes_cons_rows_of_not_mem arg10.view _ _ _ [] y hoff rfl h).trans (congrFun (harg10.read_unread xs1) y)

set_option maxHeartbeats 1000000 in
/-- THE FIRST POINT. Whatever the first scratch matrix held, the body stores the first payload of x and W₁ whole into
    it, reads it back, and then does what every point of the first phase does. -/
theorem run_first_point (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S400x40 .f32) (harg8 : arg8.IsWhole) (arg9 : Memref sig .tc .vmem S10000x128 .f32) (harg9 : arg9.IsWhole) (arg10 : Memref sig .tc .vmem S10000x40 .f32) (harg10 : arg10.IsWhole)
    (hc0 : condFirst i) (hc1 : k0_cond2 i = 1#1) (hc2 : ¬k0_cond3 i = 1#1) (o : ℕ) (hoff : k0_off1 i = ![o, 0])
    (x0 : Vec F S10000x128 .f32) (x1 : Vec F S400x10000 .f32) (x2 : Vec F S128x128 .f32) (x3 : Vec F S1x128 .f32) (x4 : Vec F S128x40 .f32) (x5 : Vec F S1x40 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (k0_pay1 x0 x2)
            ∗ (∃ d' : Vec F S10000x40 .f32,
              ⌜(∀ (y : S10000x40.Idx) (x : S400x40.Idx), (y 0).val = o + (x 0).val → (y 1).val = (x 1).val → d' y = k0_pay2 x1 (k0_pay1 x0 x2) x3 x4 x)
                ∧ (∀ y : S10000x40.Idx, ((y 0).val < o ∨ o + 400 ≤ (y 0).val) → d' y = xs1 y)⌝
              ∗ owns (c : Thread nD τ) arg10 fullShare d')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  sl_unfold_words
  simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x128) hz2, View.ld_unit_zero (S := S1x128) hz2, View.ld_unit_zero (S := S128x40) hz2, View.ld_unit_zero (S := S1x40) hz2, View.ld_unit_zero (S := S10000x40) hz2, View.readCov_unit_zero (S := S10000x128) arg9.view hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; swap; · iexact HS0
    ipureintro
    rw [View.read_writes_eq_canon _ _ _ (fun y => ⟨_, List.mem_singleton_self _, View.mem_set_unit_zero hz2 inb_S10000x128_S10000x128_0_0 y⟩), View.canon_unit_zero hz2]
  iexists _; isplitr; swap
  · iexists _; isplitr; swap; · iexact HS1
    ipureintro; rfl
  ipureintro
  refine ⟨fun y x h0 h1 => ?_, fun y h => ?_⟩
  · exact View.read_writes_cons_rows_of_mem arg10.view _ _ _ [] y x hoff h0 h1
  · exact (View.read_writes_cons_rows_of_not_mem arg10.view _ _ _ [] y hoff rfl h).trans (congrFun (harg10.read_unread xs1) y)

end Cert.KernelIdeal.Body

end
-- ==== Proof.KData.lean ====
/-
  What the grid's fifty points compute, named over the windows' blocks, and the proof data of the pipeline.

  The first scratch matrix carries x · W₁ from the first point on; the second gathers the second support matrix 400
  rows per point of the first phase and is complete when the second phase begins; each point of the second phase leaves
  400 rows of the result in the output block. Between points the invariant says exactly that: after n points the rows
  of the second scratch matrix below 400 n are the second support matrix's. The inputs' buffers hold their blocks at
  every point. Of the output block's buffer the data say what the body leaves only in the second phase — in the first
  phase the body stores nothing there, and the buffer is written back once in that state — so that window's data are a
  RELATION between what the body finds and what it leaves, not a named contents.
-/
import proofs.«122475_g28243704939219_cont_9to1_2045_20_alg».proof.Proof.KRuns
import proofs.«122475_g28243704939219_cont_9to1_2045_20_alg».proof.Proof.LibRelArr
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute, named over the windows' blocks

Window 0 is x, window 1 the adjacency panel of the point, windows 2–5 W₁, b₁, W₂, b₂ (each one block, the whole
array), window 6 the output block. The first scratch matrix holds `s1` = x · W₁ from the first point on; rows
[400 t, 400 t + 400) of the second hold `s2Blk t` once point t of the first phase has run, so that after the first
phase it holds `s2` whole; point t of the second phase leaves `outBlk t` in the output block, which is rows
[400 (49 − t), 400 (49 − t) + 400) of `outArr`. -/

/-- Point `n` of the fifty. -/
def pt (n : ℕ) (h : n < 50) : Fin cfg0.N := ⟨n, lt_of_lt_of_eq h N_0.symm⟩

def xBlk (c : Dev nD) (t : Fin cfg0.N) : Vec F S10000x128 .f32 := iblk m c 0 t
def adjBlk (c : Dev nD) (t : Fin cfg0.N) : Vec F S400x10000 .f32 := iblk m c 1 t
def w1Blk (c : Dev nD) (t : Fin cfg0.N) : Vec F S128x128 .f32 := iblk m c 2 t
def b1Blk (c : Dev nD) (t : Fin cfg0.N) : Vec F S1x128 .f32 := iblk m c 3 t
def w2Blk (c : Dev nD) (t : Fin cfg0.N) : Vec F S128x40 .f32 := iblk m c 4 t
def b2Blk (c : Dev nD) (t : Fin cfg0.N) : Vec F S1x40 .f32 := iblk m c 5 t

/-- x · W₁, as the first point stores it. -/
def s1 (c : Dev nD) : Vec F S10000x128 .f32 := k0_pay1 (xBlk m c (pt 0 (by omega))) (w1Blk m c (pt 0 (by omega)))

/-- The rows of the second support matrix that point `t` of the first phase stores. -/
def s2Blk (c : Dev nD) (t : Fin cfg0.N) : Vec F S400x40 .f32 :=
  k0_pay2 (adjBlk m c t) (s1 m c) (b1Blk m c t) (w2Blk m c t)

/-- The second support matrix whole: row `r` is row `r % 400` of what point `r / 400` stores. -/
def s2 (c : Dev nD) : Vec F S10000x40 .f32 := fun y =>
  s2Blk m c (pt ((y 0).val / 400) (by have h : (y 0).val < 10000 := (y 0).isLt; omega))
    (ValueIdx.ix2 ⟨(y 0).val % 400, Nat.mod_lt _ (by omega)⟩ (y 1))

/-- What point `t` of the second phase leaves in the output block. -/
def outBlk (c : Dev nD) (t : Fin cfg0.N) : Vec F S400x40 .f32 := k0_pay3 (adjBlk m c t) (s2 m c) (b2Blk m c t)

/-- The result array: row `r` is row `r % 400` of what point `49 − r / 400` leaves. -/
def outArr (c : Dev nD) : Vec F S10000x40 .f32 := fun y =>
  outBlk m c (pt (49 - (y 0).val / 400) (by omega)) (ValueIdx.ix2 ⟨(y 0).val % 400, Nat.mod_lt _ (by omega)⟩ (y 1))

/-- A row of the second support matrix, read where point `t` of the first phase stores it. -/
theorem s2_rows (c : Dev nD) (t : Fin cfg0.N) (y : S10000x40.Idx) (x : S400x40.Idx)
    (h0 : (y 0).val = 400 * t.val + (x 0).val) (h1 : (y 1).val = (x 1).val) :
    s2 m c y = k0_pay2 (iblk m c 1 t) (s1 m c) (iblk m c 3 t) (iblk m c 4 t) x := by
  have hx : (x 0).val < 400 := (x 0).isLt
  have e : pt ((y 0).val / 400) (by have h : (y 0).val < 10000 := (y 0).isLt; omega) = t :=
    Fin.ext (by show (y 0).val / 400 = t.val; omega)
  have ex : (ValueIdx.ix2 ⟨(y 0).val % 400, Nat.mod_lt _ (by omega)⟩ (y 1) : S400x40.Idx) = x :=
    funext fun a => Fin.ext (by
      match a with
      | ⟨0, _⟩ => show (y 0).val % 400 = (x 0).val; omega
      | ⟨1, _⟩ => exact h1)
  unfold s2; rw [e, ex]; rfl

/-! ## The scratch matrices between points -/

/-- The two scratch operands, whole scoped buffers of the kernel's own. -/
abbrev scM0 : Memref sig .tc .vmem S10000x128 .f32 := Memref.whole cc0_scratch0
abbrev scM1 : Memref sig .tc .vmem S10000x40 .f32 := Memref.whole cc0_scratch1

/-- What the region is entered with besides the windows: both scratch matrices at anything, the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- THE INVARIANT before point `n`: nothing known before the first point; afterwards the first scratch matrix holds
    x · W₁ and the rows of the second below 400 n are the second support matrix's (from n = 25 on: all of them). -/
def PhiS (c : Dev nD) : ℕ → sProp 𝕄
  | 0 => Pipeline.ΦA spec0 c
  | n + 1 => iprop(iprop(owns (c : Thread nD τ) scM0 fullShare (s1 m c)
      ∗ (∃ d : Vec F S10000x40 .f32, ⌜∀ y : S10000x40.Idx, (y 0).val < 400 * (n + 1) → d y = s2 m c y⌝ ∗ owns (c : Thread nD τ) scM1 fullShare d))
      ∗ (∃ r, prngReg c r))

theorem PhiS_pos (c : Dev nD) (n : ℕ) (hn : n ≠ 0) :
    PhiS m c n = iprop(iprop(owns (c : Thread nD τ) scM0 fullShare (s1 m c)
      ∗ (∃ d : Vec F S10000x40 .f32, ⌜∀ y : S10000x40.Idx, (y 0).val < 400 * n → d y = s2 m c y⌝ ∗ owns (c : Thread nD τ) scM1 fullShare d))
      ∗ (∃ r, prngReg c r)) := by
  cases n with
  | zero => exact absurd rfl hn
  | succ n => rfl

/-! ## The proof data -/

/-- Exact data for the six inputs (each buffer holds its block after the body as before it); the output's contents
    are not named here: its relation is given below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val
  q _ := fullShare
  owed _ := 0

/-- What the body may leave in the output block's buffer at point `t`: in the second phase exactly `outBlk t`; in the
    first phase anything (it stores nothing there, and the buffer is written back once before it has). -/
def outRel (c : Dev nD) (t : Fin cfg0.N) (_Y X : (cfg0.win 6).block.Idx → Elt F (cfg0.win 6).elt) : Prop :=
  25 ≤ t.val → X = outBlk m c t

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (outRel m c)

/-- The relational proof data the launch is made with. -/
def rd (c : Dev nD) : RDat τ (Elt F) Unit ℕ (UR sig nD τ) ℕ cfg0 c := (dat m c).toR.override (ovr m c)

theorem A_eq (c : Dev nD) (w : Fin cfg0.W) : (rd m c).A w = V m c (Pipeline.arrRef spec0 w) := by
  show (dat m c).A w = _; dsimp only [dat]

theorem datA_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]

/-- Whatever the body may find in an input's buffer is the input's block at the point. -/
theorem found_0 (c : Dev nD) (t : Fin cfg0.N) (Y) (h : (rd m c).Finds 0 t Y) : Y = iblk m c 0 t := by
  obtain ⟨d, rfl⟩ := (dat m c).toR_finds 0 t Y (((dat m c).toR.override_finds (ovr := ovr m c) rfl t Y).mp h)
  exact before0_0_of m (dat m c) (datA_eq m c 0) (after_0 m c) t d
theorem found_1 (c : Dev nD) (t : Fin cfg0.N) (Y) (h : (rd m c).Finds 1 t Y) : Y = iblk m c 1 t := by
  obtain ⟨d, rfl⟩ := (dat m c).toR_finds 1 t Y (((dat m c).toR.override_finds (ovr := ovr m c) rfl t Y).mp h)
  exact before0_1_of m (dat m c) (datA_eq m c 1) (after_1 m c) t d
theorem found_2 (c : Dev nD) (t : Fin cfg0.N) (Y) (h : (rd m c).Finds 2 t Y) : Y = iblk m c 2 t := by
  obtain ⟨d, rfl⟩ := (dat m c).toR_finds 2 t Y (((dat m c).toR.override_finds (ovr := ovr m c) rfl t Y).mp h)
  exact before0_2_of m (dat m c) (datA_eq m c 2) (after_2 m c) t d
theorem found_3 (c : Dev nD) (t : Fin cfg0.N) (Y) (h : (rd m c).Finds 3 t Y) : Y = iblk m c 3 t := by
  obtain ⟨d, rfl⟩ := (dat m c).toR_finds 3 t Y (((dat m c).toR.override_finds (ovr := ovr m c) rfl t Y).mp h)
  exact before0_3_of m (dat m c) (datA_eq m c 3) (after_3 m c) t d
theorem found_4 (c : Dev nD) (t : Fin cfg0.N) (Y) (h : (rd m c).Finds 4 t Y) : Y = iblk m c 4 t := by
  obtain ⟨d, rfl⟩ := (dat m c).toR_finds 4 t Y (((dat m c).toR.override_finds (ovr := ovr m c) rfl t Y).mp h)
  exact before0_4_of m (dat m c) (datA_eq m c 4) (after_4 m c) t d
theorem found_5 (c : Dev nD) (t : Fin cfg0.N) (Y) (h : (rd m c).Finds 5 t Y) : Y = iblk m c 5 t := by
  obtain ⟨d, rfl⟩ := (dat m c).toR_finds 5 t Y (((dat m c).toR.override_finds (ovr := ovr m c) rfl t Y).mp h)
  exact before0_5_of m (dat m c) (datA_eq m c 5) (after_5 m c) t d

/-- An input's buffer handed back at its block is what its relation asks. -/
theorem left_0 (c : Dev nD) (t : Fin cfg0.N) (Y) : (rd m c).after 0 t Y (iblk m c 0 t) := by
  show (dat m c).Leaves 0 t (iblk m c 0 t)
  exact (Dat.Leaves.live_iff (dat m c) (.inl rfl)).mpr (after_0 m c t).symm
theorem left_1 (c : Dev nD) (t : Fin cfg0.N) (Y) : (rd m c).after 1 t Y (iblk m c 1 t) := by
  show (dat m c).Leaves 1 t (iblk m c 1 t)
  exact (Dat.Leaves.live_iff (dat m c) (.inl rfl)).mpr (after_1 m c t).symm
theorem left_2 (c : Dev nD) (t : Fin cfg0.N) (Y) : (rd m c).after 2 t Y (iblk m c 2 t) := by
  show (dat m c).Leaves 2 t (iblk m c 2 t)
  exact (Dat.Leaves.live_iff (dat m c) (.inl rfl)).mpr (after_2 m c t).symm
theorem left_3 (c : Dev nD) (t : Fin cfg0.N) (Y) : (rd m c).after 3 t Y (iblk m c 3 t) := by
  show (dat m c).Leaves 3 t (iblk m c 3 t)
  exact (Dat.Leaves.live_iff (dat m c) (.inl rfl)).mpr (after_3 m c t).symm
theorem left_4 (c : Dev nD) (t : Fin cfg0.N) (Y) : (rd m c).after 4 t Y (iblk m c 4 t) := by
  show (dat m c).Leaves 4 t (iblk m c 4 t)
  exact (Dat.Leaves.live_iff (dat m c) (.inl rfl)).mpr (after_4 m c t).symm
theorem left_5 (c : Dev nD) (t : Fin cfg0.N) (Y) : (rd m c).after 5 t Y (iblk m c 5 t) := by
  show (dat m c).Leaves 5 t (iblk m c 5 t)
  exact (Dat.Leaves.live_iff (dat m c) (.inl rfl)).mpr (after_5 m c t).symm

/-- In the first phase the output's relation asks nothing. -/
theorem left_out_first (c : Dev nD) (t : Fin cfg0.N) (h : t.val < 25) (Y X) : (rd m c).after 6 t Y X := by
  show outRel m c t Y X
  intro h'; omega
/-- In the second phase it asks for `outBlk t`. -/
theorem left_out_second (c : Dev nD) (t : Fin cfg0.N) (Y) : (rd m c).after 6 t Y (outBlk m c t) := by
  show outRel m c t Y (outBlk m c t)
  intro _; rfl

end Cert.KernelIdeal.Body

end
-- ==== Proof.KOblig.lean ====
/-
  The body obligation of the fused graph-convolution kernel at every grid point, and the launch.

  At a point the inputs' buffers hold their blocks; the invariant hands the body the two scratch matrices — at anything
  before the first point, afterwards the first at x · W₁ and the second with its rows below 400 t at the second
  support matrix's —; the point is the first, another of the first phase, or one of the second phase, and the
  corresponding run applies; the invariant closes with 400 more rows known (first phase) or unchanged (second phase).
  The launch theorem for relational proof data then gives the run of @main: every windowed array at some contents the
  data allow after every write-back, every other unscoped buffer as the region found it.
-/
import proofs.«122475_g28243704939219_cont_9to1_2045_20_alg».proof.Proof.KData
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at every point, the launch, and the arrays after the run -/

/-- At the first point the first scratch matrix is stored from that point's own blocks of x and W₁. -/
theorem s1_eq (c : Dev nD) (t : Fin cfg0.N) (hz : t.val = 0) : s1 m c = k0_pay1 (iblk m c 0 t) (iblk m c 2 t) := by
  obtain ⟨n, hn⟩ := t
  obtain rfl : n = 0 := hz
  rfl

/-- One point of the first phase extends the rows of the second scratch matrix known to be the second support
    matrix's by the 400 rows it stores: the rows below are kept, the stored rows are `s2`'s by `s2_rows`. -/
theorem rows_step (c : Dev nD) (t : Fin cfg0.N) (d d' : Vec F S10000x40 .f32)
    (hd : ∀ y : S10000x40.Idx, (y 0).val < 400 * t.val → d y = s2 m c y)
    (hd' : (∀ (y : S10000x40.Idx) (x : S400x40.Idx), (y 0).val = 400 * t.val + (x 0).val → (y 1).val = (x 1).val →
              d' y = k0_pay2 (iblk m c 1 t) (s1 m c) (iblk m c 3 t) (iblk m c 4 t) x)
          ∧ (∀ y : S10000x40.Idx, ((y 0).val < 400 * t.val ∨ 400 * t.val + 400 ≤ (y 0).val) → d' y = d y)) :
    ∀ y : S10000x40.Idx, (y 0).val < 400 * (t.val + 1) → d' y = s2 m c y := by
  intro y hy
  by_cases hlt : (y 0).val < 400 * t.val
  · rw [hd'.2 y (.inl hlt)]; exact hd y hlt
  · have hx0 : (y 0).val - 400 * t.val < 400 := by omega
    have e0 : (y 0).val = 400 * t.val + ((ValueIdx.ix2 ⟨(y 0).val - 400 * t.val, hx0⟩ (y 1) : S400x40.Idx) 0).val := by
      show (y 0).val = 400 * t.val + ((y 0).val - 400 * t.val); omega
    have e1 : (y 1).val = ((ValueIdx.ix2 ⟨(y 0).val - 400 * t.val, hx0⟩ (y 1) : S400x40.Idx) 1).val := rfl
    rw [hd'.1 y _ e0 e1, s2_rows m c t y _ e0 e1]

set_option maxHeartbeats 4000000 in
/-- THE BODY AT A POINT, the six inputs' buffers at their blocks: the first point, the rest of the first phase, the
    second phase — each the corresponding run, the invariant opened before it and closed after it. -/
theorem sound_body (c : Dev nD) (t : Fin cfg0.N)
    (Y0 : (cfg0.win 0).block.Idx → Elt F (cfg0.win 0).elt) (Y1 : (cfg0.win 1).block.Idx → Elt F (cfg0.win 1).elt)
    (Y2 : (cfg0.win 2).block.Idx → Elt F (cfg0.win 2).elt) (Y3 : (cfg0.win 3).block.Idx → Elt F (cfg0.win 3).elt)
    (Y4 : (cfg0.win 4).block.Idx → Elt F (cfg0.win 4).elt) (Y5 : (cfg0.win 5).block.Idx → Elt F (cfg0.win 5).elt)
    (Y6 : (cfg0.win 6).block.Idx → Elt F (cfg0.win 6).elt)
    (e0 : Y0 = iblk m c 0 t) (e1 : Y1 = iblk m c 1 t) (e2 : Y2 = iblk m c 2 t) (e3 : Y3 = iblk m c 3 t)
    (e4 : Y4 = iblk m c 4 t) (e5 : Y5 = iblk m c 5 t) :
    iprop((rd m c).Φ t.castSucc ∗ (rd m c).owesAt () t.castSucc
      ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6)
    ⊢ wp frame (wpE (defs₀ (F := F)) Variants.none c none) Set.univ (bodyAt0 t) (fun _ =>
      iprop((rd m c).Φ t.succ ∗ (rd m c).owesAt () t.succ
        ∗ (∃ X, ⌜(rd m c).after 0 t Y0 X⌝ ∗ owns (c : Thread nD τ) (st0_0 t) fullShare X)
        ∗ (∃ X, ⌜(rd m c).after 1 t Y1 X⌝ ∗ owns (c : Thread nD τ) (st0_1 t) fullShare X)
        ∗ (∃ X, ⌜(rd m c).after 2 t Y2 X⌝ ∗ owns (c : Thread nD τ) (st0_2 t) fullShare X)
        ∗ (∃ X, ⌜(rd m c).after 3 t Y3 X⌝ ∗ owns (c : Thread nD τ) (st0_3 t) fullShare X)
        ∗ (∃ X, ⌜(rd m c).after 4 t Y4 X⌝ ∗ owns (c : Thread nD τ) (st0_4 t) fullShare X)
        ∗ (∃ X, ⌜(rd m c).after 5 t Y5 X⌝ ∗ owns (c : Thread nD τ) (st0_5 t) fullShare X)
        ∗ (∃ X, ⌜(rd m c).after 6 t Y6 X⌝ ∗ owns (c : Thread nD τ) (st0_6 t) fullShare X))) := by
  subst e0 e1 e2 e3 e4 e5
  have hN : t.val < 50 := lt_of_lt_of_eq t.isLt N_0
  rw [show (rd m c).owesAt () t.succ = (rd m c).owesAt () t.castSucc from rfl]
  rw [show (rd m c).Φ t.castSucc = PhiS m c t.val from rfl, show (rd m c).Φ t.succ = PhiS m c (t.val + 1) from rfl]
  rw [PhiS_pos m c (t.val + 1) (Nat.succ_ne_zero _)]
  unfold bodyAt0
  by_cases h1 : t.val < 25
  · have hc1 : k0_cond2 (grid0.coords t) = 1#1 := (firstPhase_iff t).mpr h1
    have hc2 : ¬k0_cond3 (grid0.coords t) = 1#1 := fun h => by have := (secondPhase_iff t).mp h; omega
    have hoff : k0_off1 (grid0.coords t) = ![400 * t.val, 0] := rowOffset_eq t h1
    by_cases hz : t.val = 0
    · have hc0 : condFirst (grid0.coords t) := (condFirst_iff t).mpr hz
      rw [show PhiS m c t.val = Pipeline.ΦA spec0 c from by rw [hz]; rfl, PhiA_eq]
      iintro ⟨⟨⟨⟨%d0, HS0⟩, ⟨%d1, HS1⟩⟩, Hg⟩, Ho, H0, H1, H2, H3, H4, H5, H6⟩
      iapply (run_first_point c (grid0.coords t) _ _ _ _ _ _ _ _ _ _ _ _ _ _ _ _ _ _ hc0 hc1 hc2 (400 * t.val) hoff (iblk m c 0 t) (iblk m c 1 t) (iblk m c 2 t) (iblk m c 3 t) (iblk m c 4 t) (iblk m c 5 t) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      iintro ⟨H0, H1, H2, H3, H4, H5, ⟨%d6, H6⟩, HS0, ⟨%d', %hd', HS1⟩⟩
      rw [← s1_eq m c t hz] at hd'
      isplitl [HS0 HS1 Hg]
      · isplitl [HS0 HS1]
        · isplitl [HS0]
          · rw [s1_eq m c t hz]; iexact HS0
          iexists d'; isplitr
          · ipureintro; exact rows_step m c t d1 d' (fun y hy => by omega) hd'
          iexact HS1
        iexact Hg
      isplitl [Ho]; · iexact Ho
      isplitl [H0]
      · iexists _; isplitr; · ipureintro; exact left_0 m c t _
        iexact H0
      isplitl [H1]
      · iexists _; isplitr; · ipureintro; exact left_1 m c t _
        iexact H1
      isplitl [H2]
      · iexists _; isplitr; · ipureintro; exact left_2 m c t _
        iexact H2
      isplitl [H3]
      · iexists _; isplitr; · ipureintro; exact left_3 m c t _
        iexact H3
      isplitl [H4]
      · iexists _; isplitr; · ipureintro; exact left_4 m c t _
        iexact H4
      isplitl [H5]
      · iexists _; isplitr; · ipureintro; exact left_5 m c t _
        iexact H5
      iexists d6; isplitr; · ipureintro; exact left_out_first m c t h1 _ _
      iexact H6
    · have hc0 : ¬condFirst (grid0.coords t) := fun h => hz ((condFirst_iff t).mp h)
      rw [PhiS_pos m c t.val hz]
      iintro ⟨⟨⟨HS0, ⟨%d1, %hd1, HS1⟩⟩, Hg⟩, Ho, H0, H1, H2, H3, H4, H5, H6⟩
      iapply (run_first_phase c (grid0.coords t) _ _ _ _ _ _ _ _ _ _ _ _ _ _ _ _ _ _ hc0 hc1 hc2 (400 * t.val) hoff (iblk m c 0 t) (iblk m c 1 t) (iblk m c 2 t) (iblk m c 3 t) (iblk m c 4 t) (iblk m c 5 t) (s1 m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, ⟨%d', %hd', HS1⟩⟩
      isplitl [HS0 HS1 Hg]
      · isplitl [HS0 HS1]
        · isplitl [HS0]
          · iexact HS0
          iexists d'; isplitr
          · ipureintro; exact rows_step m c t d1 d' hd1 hd'
          iexact HS1
        iexact Hg
      isplitl [Ho]; · iexact Ho
      isplitl [H0]
      · iexists _; isplitr; · ipureintro; exact left_0 m c t _
        iexact H0
      isplitl [H1]
      · iexists _; isplitr; · ipureintro; exact left_1 m c t _
        iexact H1
      isplitl [H2]
      · iexists _; isplitr; · ipureintro; exact left_2 m c t _
        iexact H2
      isplitl [H3]
      · iexists _; isplitr; · ipureintro; exact left_3 m c t _
        iexact H3
      isplitl [H4]
      · iexists _; isplitr; · ipureintro; exact left_4 m c t _
        iexact H4
      isplitl [H5]
      · iexists _; isplitr; · ipureintro; exact left_5 m c t _
        iexact H5
      iexists d6; isplitr; · ipureintro; exact left_out_first m c t h1 _ _
      iexact H6
  · have h2 : 25 ≤ t.val := by omega
    have hc0 : ¬condFirst (grid0.coords t) := fun h => by have := (condFirst_iff t).mp h; omega
    have hc1 : ¬k0_cond2 (grid0.coords t) = 1#1 := fun h => h1 ((firstPhase_iff t).mp h)
    have hc2 : k0_cond3 (grid0.coords t) = 1#1 := (secondPhase_iff t).mpr h2
    rw [PhiS_pos m c t.val (by omega)]
    iintro ⟨⟨⟨HS0, ⟨%d1, %hd1, HS1⟩⟩, Hg⟩, Ho, H0, H1, H2, H3, H4, H5, H6⟩
    obtain rfl : d1 = s2 m c := funext fun y => hd1 y (by have hy : (y 0).val < 10000 := (y 0).isLt; omega)
    iapply (run_second_phase c (grid0.coords t) _ _ _ _ _ _ _ _ _ _ _ _ _ _ _ _ _ _ hc0 hc1 hc2 (iblk m c 0 t) (iblk m c 1 t) (iblk m c 2 t) (iblk m c 3 t) (iblk m c 4 t) (iblk m c 5 t) (s1 m c) (s2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (s2 m c); isplitr
        · ipureintro; exact fun _ _ => rfl
        iexact HS1
      iexact Hg
    isplitl [Ho]; · iexact Ho
    isplitl [H0]
    · iexists _; isplitr; · ipureintro; exact left_0 m c t _
      iexact H0
    isplitl [H1]
    · iexists _; isplitr; · ipureintro; exact left_1 m c t _
      iexact H1
    isplitl [H2]
    · iexists _; isplitr; · ipureintro; exact left_2 m c t _
      iexact H2
    isplitl [H3]
    · iexists _; isplitr; · ipureintro; exact left_3 m c t _
      iexact H3
    isplitl [H4]
    · iexists _; isplitr; · ipureintro; exact left_4 m c t _
      iexact H4
    isplitl [H5]
    · iexists _; isplitr; · ipureintro; exact left_5 m c t _
      iexact H5
    iexists (outBlk m c t); isplitr; · ipureintro; exact left_out_second m c t _
    iexact H6

/-- The body obligation of the relational proof data: whatever the inputs' buffers may be found at is their blocks. -/
theorem body_obligation (c : Dev nD) : (rd m c).BodyObligation (defs₀ (F := F)) Variants.none () Set.univ := fun t Y hY => by
  rw [bigSep_W0, bigSep_W0]
  exact sound_body m c t (Y 0) (Y 1) (Y 2) (Y 3) (Y 4) (Y 5) (Y 6) (found_0 m c t _ (hY 0)) (found_1 m c t _ (hY 1))
    (found_2 m c t _ (hY 2)) (found_3 m c t _ (hY 3)) (found_4 m c t _ (hY 4)) (found_5 m c t _ (hY 5))

/-- The region is entered with the invariant before the first point, -/
theorem hin (c : Dev nD) : Pipeline.ΦA spec0 c ⊢ (rd m c).Φ 0 := by
  rw [show (rd m c).Φ 0 = PhiS m c 0 from rfl, show PhiS m c 0 = Pipeline.ΦA spec0 c from rfl]
  try exact Idealize.SL.BI.Entails.refl _

/-- and the invariant after the last point gives the scratch matrices back at some contents. -/
theorem hout (c : Dev nD) : (rd m c).Φ (Fin.last cfg0.N) ⊢ Pipeline.ΦA spec0 c := by
  rw [show (rd m c).Φ (Fin.last cfg0.N) = PhiS m c (Fin.last cfg0.N).val from rfl,
    PhiS_pos m c _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- THE RUN: every weakly fair execution of @main terminates, every windowed array at some contents the proof data
    allow after every write-back, every other unscoped buffer as the region found it. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := A_eq m) (hin := hin m) (hout := hout m)

end Cert.KernelIdeal.Body

end
-- ==== Proof.KFinal.lean ====
/-
  The arrays after the run of the fused graph-convolution kernel.

  The six argument arrays are as launched. The result array is written back block by block: once at the end of the
  first phase (block 0, from a buffer the body never stored into: anything), then by every point t of the second phase
  (block 49 − t, the point's 400 rows of the result). Each of the 25 row blocks is thus written by exactly one point of
  the second phase, after the idle write-back, and the array ends at `outArr`, whatever the idle write-back wrote.
-/
import proofs.«122475_g28243704939219_cont_9to1_2045_20_alg».proof.Proof.KOblig
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array after the run

The output window's block index is 0 throughout the first phase and 24 − (row block) in the second: its buffer is
written back once at the end of the first phase, holding nothing the body stored, and then at every point of the second
phase, point t writing rows [400 (49 − t), 400 (49 − t) + 400). Every row block is written by exactly one point of the
second phase, and all of those come after the one idle write-back: so the array ends at `outArr`. -/

/-- The output window's block index in the second phase, -/
theorem out_index : ∀ t : Fin cfg0.N, 25 ≤ t.val → win0_6.index t (0 : Fin 2) = 49 - t.val ∧ win0_6.index t (1 : Fin 2) = 0 :=
  (by decide +kernel : ∀ t : Fin grid0.N, 25 ≤ t.val → win0_6.index t (0 : Fin 2) = 49 - t.val ∧ win0_6.index t (1 : Fin 2) = 0)
/-- and every point of the second phase writes its block back. -/
theorem out_flush : ∀ t : Fin cfg0.N, 25 ≤ t.val → (cfg0.win 6).flush t = true :=
  (by decide +kernel : ∀ t : Fin grid0.N, 25 ≤ t.val → win0_6.flush t = true)

/-- An index of the result array is in point `t`'s block iff each coordinate is in the block's range on its axis. -/
theorem mem_out_blk (t : Fin cfg0.N) (i : S10000x40.Idx) :
    i ∈ ((cfg0.win 6).blk t).view.set ↔ ∀ a : Fin 2, win0_6.index t a * S400x40.size a ≤ (i a).val ∧ (i a).val < win0_6.index t a * S400x40.size a + S400x40.size a := by
  show i ∈ ((View.whole main_v2).slice (win0_6.rect t)).set ↔ _
  rw [View.set_slice_whole, Rect.mem_set_unit]
  exact Iff.rfl

/-- A row of the result array, read where point `t` of the second phase writes it. -/
theorem outArr_rows (c : Dev nD) (t : Fin cfg0.N) (ht : 25 ≤ t.val) (y : S10000x40.Idx) (x : S400x40.Idx)
    (h0 : (y 0).val = 400 * (49 - t.val) + (x 0).val) (h1 : (y 1).val = (x 1).val) :
    outArr m c y = outBlk m c t x := by
  have hN : t.val < 50 := lt_of_lt_of_eq t.isLt N_0
  have hx : (x 0).val < 400 := (x 0).isLt
  have e : pt (49 - (y 0).val / 400) (by omega) = t :=
    Fin.ext (by show 49 - (y 0).val / 400 = t.val; omega)
  have ex : (ValueIdx.ix2 ⟨(y 0).val % 400, Nat.mod_lt _ (by omega)⟩ (y 1) : S400x40.Idx) = x :=
    funext fun a => Fin.ext (by
      match a with
      | ⟨0, _⟩ => show (y 0).val % 400 = (x 0).val; omega
      | ⟨1, _⟩ => exact h1)
  unfold outArr; rw [e, ex]

/-- What point `t` of the second phase leaves in the output block is its block of the result array. -/
theorem outBlk_eq (c : Dev nD) (t : Fin cfg0.N) (ht : 25 ≤ t.val) (x : S400x40.Idx) :
    outBlk m c t x = outArr m c (((cfg0.win 6).blk t).view.emb x) := by
  obtain ⟨e0, e1⟩ := out_index t ht
  refine (outArr_rows m c t ht _ x ?_ ?_).symm
  · show win0_6.index t (0 : Fin 2) * 400 + 1 * (x 0).val = _
    rw [e0]; omega
  · show win0_6.index t (1 : Fin 2) * 40 + 1 * (x 1).val = _
    rw [e1]; omega

/-- THE RESULT ARRAY: whatever the relational proof data allow it to hold after every write-back is `outArr`. -/
theorem final_out (c : Dev nD) (Fv : Buf (Elt F) ((cfg0.win 6).arr.view.loc (c.tc : Thread nD τ)))
    (h : (rd m c).ArrAt 6 cfg0.N Fv) : Fv = outArr m c := by
  funext i
  have hi0 : (i 0).val < 10000 := (i 0).isLt
  have hi1 : (i 1).val < 40 := (i 1).isLt
  have hgood : 25 ≤ (pt (49 - (i 0).val / 400) (by omega)).val := by show 25 ≤ 49 - (i 0).val / 400; omega
  refine Pipeline.RDat.arrAt_apply_of_good (rd m c) 6 (outArr m c) (fun t => 25 ≤ t.val) ?_ cfg0.N Fv h
    (pt (49 - (i 0).val / 400) (by omega)) i (Fin.isLt _) (out_flush _ hgood) hgood ?_ ?_
  · intro t X _ hg hL
    obtain ⟨Y, -, hYX⟩ := hL
    have hX : X = outBlk m c t := hYX hg
    subst hX
    funext x
    exact outBlk_eq m c t hg x
  · rw [mem_out_blk]
    obtain ⟨e0, e1⟩ := out_index _ hgood
    intro a
    match a with
    | ⟨0, _⟩ =>
      show win0_6.index _ (0 : Fin 2) * 400 ≤ (i 0).val ∧ (i 0).val < win0_6.index _ (0 : Fin 2) * 400 + 400
      rw [e0]; show (49 - (49 - (i 0).val / 400)) * 400 ≤ (i 0).val ∧ (i 0).val < (49 - (49 - (i 0).val / 400)) * 400 + 400
      omega
    | ⟨1, _⟩ =>
      show win0_6.index _ (1 : Fin 2) * 40 ≤ (i 1).val ∧ (i 1).val < win0_6.index _ (1 : Fin 2) * 40 + 40
      rw [e1]; omega
  · intro t' ht' _
    show 25 ≤ t'.val
    have : 25 ≤ 49 - (i 0).val / 400 := hgood
    have h' : 49 - (i 0).val / 400 < t'.val := ht'
    omega

/-- THE RUN, READ: every weakly fair execution of @main terminates with the result array at `outArr` and the six
    argument arrays as launched (a staged argument is its window's array, which no write-back touches; b₁ and b₂, staged
    only through their reshaped copies, are among the buffers the region leaves alone). -/
theorem run_value : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨final_out m c _ ((h c).1 6),
      ((congrFun ((rd m c).ArrAt_in 0 rfl _) _).mp ((h c).1 0)).trans ((A_eq m c 0).trans (V_main_arg0 m c)),
      ((congrFun ((rd m c).ArrAt_in 1 rfl _) _).mp ((h c).1 1)).trans ((A_eq m c 1).trans (V_main_arg1 m c)),
      ((congrFun ((rd m c).ArrAt_in 2 rfl _) _).mp ((h c).1 2)).trans ((A_eq m c 2).trans (V_main_arg2 m c)),
      ((h c).2 main_arg3 (Pipeline.mem_restRefs_of main_arg3 (by decide) (by decide))).trans (V_main_arg3 m c),
      ((congrFun ((rd m c).ArrAt_in 4 rfl _) _).mp ((h c).1 4)).trans ((A_eq m c 4).trans (V_main_arg4 m c)),
      ((h c).2 main_arg5 (Pipeline.mem_restRefs_of main_arg5 (by decide) (by decide))).trans (V_main_arg5 m c)⟩)
    (run_main m ρ)

end Cert.KernelIdeal.Body

end
-- ==== Proof.KPay.lean ====
/-
  The kernel's three payloads read at one element, over the extended reals, where every operation is exact.

  • The first payload is x · W₁ into a zero accumulator: element (i, j) is ∑ k, x (i, k) · W₁ (k, j).
  • The second takes a block a of 400 rows of the adjacency matrix, the whole first support s, the bias row b and W₂,
    and is max (a · s + b) 0 · W₂: element (r, j) is ∑ k, max (∑ l, a (r, l) · s (l, k) + b (0, k)) 0 · W₂ (k, j).
  • The third takes a block a, the whole second support s and the bias row b: z = a · s + b, then the log-softmax of z
    along each row: M r is the maximum of row r (a fold of max from −∞ over the forty classes), d = z − M, and the
    value at (r, j) is d (r, j) − log (∑ j', exp (d (r, j'))).

  Read at (i, j), a matrix product into a zero accumulator is the sum over the contracted coordinate of the products
  of the operands' elements (the accumulator's zero word is the number 0 and drops out); a cast to the same shape is the
  identity; the one bias row repeated over the rows is read at (0, j); a per-row value, cast to a column and repeated
  along the row, is read at r; the two row reductions are the fold of max and the sum over the row's forty coordinates;
  every other operation acts element by element. The rectifier's zero and the −∞ the maximum starts from are kept as
  their binary words.
-/
import proofs.«122475_g28243704939219_cont_9to1_2045_20_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The four matrix products, read at an element

Each record contracts the left operand's axis 1 with the right operand's axis 0 and has no batch axis, so at output
index (i, j) and contraction coordinate k the left operand is read at (i, k) and the right at (k, j). -/

theorem mm1_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem mm1_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl
/-- [10000, 128] · [128, 128] into a zero accumulator: element (i, j) is the sum over k of l (i, k) · r (k, j). -/
theorem mm1_apply (l : FVec Ideal S10000x128 .f32) (r : FVec Ideal S128x128 .f32) (i : Fin 10000) (j : Fin 128) :
    matmul (F := Ideal) dot_S10000x128_S128x128_S10000x128_1_0_0_1_n_n none l r (constant S10000x128 .f32 0x00000000#32) (ix2 i j)
      = ∑ k : Fin 128, l (ix2 i k) * r (ix2 k j) := by
  refine (Ideal.matmul_constant_zero_apply dot_S10000x128_S128x128_S10000x128_1_0_0_1_n_n none l r (ix2 i j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 i j)
      ((contrEquiv1 dot_S10000x128_S128x128_S10000x128_1_0_0_1_n_n 128 rfl rfl).symm k) = ix2 i k :=
    funext fun a => Fin.ext (by
      match a with
      | ⟨0, _⟩ => exact mm1_lhs0 _ _
      | ⟨1, _⟩ => exact (dot_S10000x128_S128x128_S10000x128_1_0_0_1_n_n.lhsIdx_val_of_single rfl _ _).trans hk)
  have er : dot_S10000x128_S128x128_S10000x128_1_0_0_1_n_n.rhsIdx (ix2 i j)
      ((contrEquiv1 dot_S10000x128_S128x128_S10000x128_1_0_0_1_n_n 128 rfl rfl).symm k) = ix2 k j :=
    funext fun a => Fin.ext (by
      match a with
      | ⟨0, _⟩ => exact (dot_S10000x128_S128x128_S10000x128_1_0_0_1_n_n.rhsIdx_val_of_single rfl _ _).trans hk
      | ⟨1, _⟩ => exact mm1_rhs1 _ _)
  rw [el, er]

theorem mm2_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem mm2_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl
/-- [400, 10000] · [10000, 128] into a zero accumulator, at (i, j): the sum over k of l (i, k) · r (k, j). -/
theorem mm2_apply (l : FVec Ideal S400x10000 .f32) (r : FVec Ideal S10000x128 .f32) (i : Fin 400) (j : Fin 128) :
    matmul (F := Ideal) dot_S400x10000_S10000x128_S400x128_1_0_0_1_n_n none l r (constant S400x128 .f32 0x00000000#32) (ix2 i j)
      = ∑ k : Fin 10000, l (ix2 i k) * r (ix2 k j) := by
  refine (Ideal.matmul_constant_zero_apply dot_S400x10000_S10000x128_S400x128_1_0_0_1_n_n none l r (ix2 i j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 i j)
      ((contrEquiv1 dot_S400x10000_S10000x128_S400x128_1_0_0_1_n_n 10000 rfl rfl).symm k) = ix2 i k :=
    funext fun a => Fin.ext (by
      match a with
      | ⟨0, _⟩ => exact mm2_lhs0 _ _
      | ⟨1, _⟩ => exact (dot_S400x10000_S10000x128_S400x128_1_0_0_1_n_n.lhsIdx_val_of_single rfl _ _).trans hk)
  have er : dot_S400x10000_S10000x128_S400x128_1_0_0_1_n_n.rhsIdx (ix2 i j)
      ((contrEquiv1 dot_S400x10000_S10000x128_S400x128_1_0_0_1_n_n 10000 rfl rfl).symm k) = ix2 k j :=
    funext fun a => Fin.ext (by
      match a with
      | ⟨0, _⟩ => exact (dot_S400x10000_S10000x128_S400x128_1_0_0_1_n_n.rhsIdx_val_of_single rfl _ _).trans hk
      | ⟨1, _⟩ => exact mm2_rhs1 _ _)
  rw [el, er]

theorem mm3_lhs0 (i : S400x40.Idx) (q : dot_S400x128_S128x40_S400x40_1_0_0_1_n_n.contr.Idx) :
    (dot_S400x128_S128x40_S400x40_1_0_0_1_n_n.lhsIdx i q 0).val = (i 0).val := by
  unfold DotDims.lhsIdx
  rw [dif_neg (show ¬(0 : Fin S400x128.rank) ∈ dot_S400x128_S128x40_S400x40_1_0_0_1_n_n.lhsBatch by decide),
    dif_pos (show (0 : Fin S400x128.rank) ∈ dot_S400x128_S128x40_S400x40_1_0_0_1_n_n.lhsNonContracting by decide)]
  rfl
theorem mm3_rhs1 (i : S400x40.Idx) (q : dot_S400x128_S128x40_S400x40_1_0_0_1_n_n.contr.Idx) :
    (dot_S400x128_S128x40_S400x40_1_0_0_1_n_n.rhsIdx i q 1).val = (i 1).val := by
  unfold DotDims.rhsIdx
  rw [dif_neg (show ¬(1 : Fin S128x40.rank) ∈ dot_S400x128_S128x40_S400x40_1_0_0_1_n_n.rhsBatch by decide),
    dif_pos (show (1 : Fin S128x40.rank) ∈ dot_S400x128_S128x40_S400x40_1_0_0_1_n_n.rhsNonContracting by decide)]
  rfl
/-- [400, 128] · [128, 40] into a zero accumulator, at (i, j): the sum over k of l (i, k) · r (k, j). -/
theorem mm3_apply (l : FVec Ideal S400x128 .f32) (r : FVec Ideal S128x40 .f32) (i : Fin 400) (j : Fin 40) :
    matmul (F := Ideal) dot_S400x128_S128x40_S400x40_1_0_0_1_n_n none l r (constant S400x40 .f32 0x00000000#32) (ix2 i j)
      = ∑ k : Fin 128, l (ix2 i k) * r (ix2 k j) := by
  refine (Ideal.matmul_constant_zero_apply dot_S400x128_S128x40_S400x40_1_0_0_1_n_n none l r (ix2 i j)).trans ?_
  rw [← Equiv.sum_comp (contrEquiv1 dot_S400x128_S128x40_S400x40_1_0_0_1_n_n 128 rfl rfl).symm]
  refine Finset.sum_congr rfl fun k _ => ?_
  have hk := contrEquiv1_symm_val dot_S400x128_S128x40_S400x40_1_0_0_1_n_n 128 rfl rfl k
  have el : dot_S400x128_S128x40_S400x40_1_0_0_1_n_n.lhsIdx (ix2 i j)
      ((contrEquiv1 dot_S400x128_S128x40_S400x40_1_0_0_1_n_n 128 rfl rfl).symm k) = ix2 i k :=
    funext fun a => Fin.ext (by
      match a with
      | ⟨0, _⟩ => exact mm3_lhs0 _ _
      | ⟨1, _⟩ => exact (dot_S400x128_S128x40_S400x40_1_0_0_1_n_n.lhsIdx_val_of_single rfl _ _).trans hk)
  have er : dot_S400x128_S128x40_S400x40_1_0_0_1_n_n.rhsIdx (ix2 i j)
      ((contrEquiv1 dot_S400x128_S128x40_S400x40_1_0_0_1_n_n 128 rfl rfl).symm k) = ix2 k j :=
    funext fun a => Fin.ext (by
      match a with
      | ⟨0, _⟩ => exact (dot_S400x128_S128x40_S400x40_1_0_0_1_n_n.rhsIdx_val_of_single rfl _ _).trans hk
      | ⟨1, _⟩ => exact mm3_rhs1 _ _)
  rw [el, er]

theorem mm4_lhs0 (i : S400x40.Idx) (q : dot_S400x10000_S10000x40_S400x40_1_0_0_1_n_n.contr.Idx) :
    (dot_S400x10000_S10000x40_S400x40_1_0_0_1_n_n.lhsIdx i q 0).val = (i 0).val := by
  unfold DotDims.lhsIdx
  rw [dif_neg (show ¬(0 : Fin S400x10000.rank) ∈ dot_S400x10000_S10000x40_S400x40_1_0_0_1_n_n.lhsBatch by decide),
    dif_pos (show (0 : Fin S400x10000.rank) ∈ dot_S400x10000_S10000x40_S400x40_1_0_0_1_n_n.lhsNonContracting by decide)]
  rfl
theorem mm4_rhs1 (i : S400x40.Idx) (q : dot_S400x10000_S10000x40_S400x40_1_0_0_1_n_n.contr.Idx) :
    (dot_S400x10000_S10000x40_S400x40_1_0_0_1_n_n.rhsIdx i q 1).val = (i 1).val := by
  unfold DotDims.rhsIdx
  rw [dif_neg (show ¬(1 : Fin S10000x40.rank) ∈ dot_S400x10000_S10000x40_S400x40_1_0_0_1_n_n.rhsBatch by decide),
    dif_pos (show (1 : Fin S10000x40.rank) ∈ dot_S400x10000_S10000x40_S400x40_1_0_0_1_n_n.rhsNonContracting by decide)]
  rfl
/-- [400, 10000] · [10000, 40] into a zero accumulator, at (i, j): the sum over k of l (i, k) · r (k, j). -/
theorem mm4_apply (l : FVec Ideal S400x10000 .f32) (r : FVec Ideal S10000x40 .f32) (i : Fin 400) (j : Fin 40) :
    matmul (F := Ideal) dot_S400x10000_S10000x40_S400x40_1_0_0_1_n_n none l r (constant S400x40 .f32 0x00000000#32) (ix2 i j)
      = ∑ k : Fin 10000, l (ix2 i k) * r (ix2 k j) := by
  refine (Ideal.matmul_constant_zero_apply dot_S400x10000_S10000x40_S400x40_1_0_0_1_n_n none l r (ix2 i j)).trans ?_
  rw [← Equiv.sum_comp (contrEquiv1 dot_S400x10000_S10000x40_S400x40_1_0_0_1_n_n 10000 rfl rfl).symm]
  refine Finset.sum_congr rfl fun k _ => ?_
  have hk := contrEquiv1_symm_val dot_S400x10000_S10000x40_S400x40_1_0_0_1_n_n 10000 rfl rfl k
  have el : dot_S400x10000_S10000x40_S400x40_1_0_0_1_n_n.lhsIdx (ix2 i j)
      ((contrEquiv1 dot_S400x10000_S10000x40_S400x40_1_0_0_1_n_n 10000 rfl rfl).symm k) = ix2 i k :=
    funext fun a => Fin.ext (by
      match a with
      | ⟨0, _⟩ => exact mm4_lhs0 _ _
      | ⟨1, _⟩ => exact (dot_S400x10000_S10000x40_S400x40_1_0_0_1_n_n.lhsIdx_val_of_single rfl _ _).trans hk)
  have er : dot_S400x10000_S10000x40_S400x40_1_0_0_1_n_n.rhsIdx (ix2 i j)
      ((contrEquiv1 dot_S400x10000_S10000x40_S400x40_1_0_0_1_n_n 10000 rfl rfl).symm k) = ix2 k j :=
    funext fun a => Fin.ext (by
      match a with
      | ⟨0, _⟩ => exact (dot_S400x10000_S10000x40_S400x40_1_0_0_1_n_n.rhsIdx_val_of_single rfl _ _).trans hk
      | ⟨1, _⟩ => exact mm4_rhs1 _ _)
  rw [el, er]

/-! ## The layout operations of a row-wise reduction kept as a column -/

/-- A vector of 400 entries cast to one column reads, at (r, 0), entry r. -/
theorem column_apply {α : Type} (v : S400.Idx → α) (r : Fin 400) :
    shapeCast S400x1 v shapeCasts_S400_S400x1 (ix2 r (0 : Fin 1)) = v (ix1 r) :=
  shapeCast_apply v shapeCasts_S400_S400x1 (ix2 r (0 : Fin 1)) (ix1 r) (by
    rw [Shape.rowMajor_val_two, Shape.rowMajor_val_one]
    show r.val = r.val * 1 + 0
    omega)

/-- One column repeated along the rows reads, at (r, j), the column at (r, 0). -/
theorem alongRow_apply {α : Type} (w : S400x1.Idx → α) (r : Fin 400) (j : Fin 40) :
    broadcastTo S400x40 w broadcasts_S400x1_S400x40 (ix2 r j) = w (ix2 r (0 : Fin 1)) :=
  broadcastTo_apply w broadcasts_S400x1_S400x40 (ix2 r j) (ix2 r (0 : Fin 1)) (fun a => by
    match a with
    | ⟨0, _⟩ => show r.val = if (400 : Nat) = 1 then 0 else r.val; rw [if_neg (by decide)]
    | ⟨1, _⟩ => show 0 = if (1 : Nat) = 1 then 0 else j.val; rw [if_pos rfl])

/-! ## The two row reductions -/

/-- The maximum along the rows of a [400, 40] array from the −∞ word: at r, the fold of max over row r. -/
theorem rowMax_apply (Z : FVec Ideal S400x40 .f32) (r : Fin 400) :
    multiReduction (F := Ideal) .maximumf [1] S400 Z 0xFF800000#32 reduces_S400x40_S400 (.inl rfl) rfl (ix1 r)
      = (Finset.univ : Finset (Fin 40)).fold max (Ideal.ofBits .f32 0xFF800000#32) (fun j => Z (ix2 r j)) := by
  refine (Ideal.multiReduction_maximumf_single Z 0xFF800000#32 reduces_S400x40_S400 (.inl rfl) rfl (ix1 r)).trans ?_
  have hf : (Z ∘ reduces_S400x40_S400.lift (ix1 r)) = fun j : Fin 40 => Z (ix2 r j) :=
    funext fun k => congrArg Z (funext fun a => Fin.ext (by match a with | ⟨0, _⟩ => rfl | ⟨1, _⟩ => rfl))
  exact congrArg (fun f => Finset.fold max (Ideal.ofBits .f32 0xFF800000#32) f (Finset.univ : Finset (Fin 40))) hf

/-- The sum along the rows of a [400, 40] array: at r, the sum of row r. -/
theorem rowSum_apply (Z : FVec Ideal S400x40 .f32) (r : Fin 400) :
    multiReduction (F := Ideal) .add [1] S400 Z 0x00000000#32 reduces_S400x40_S400 (.inl rfl) rfl (ix1 r)
      = ∑ j : Fin 40, Z (ix2 r j) := by
  refine (Ideal.multiReduction_add_single Z 0x00000000#32 reduces_S400x40_S400 (.inl rfl) rfl (ix1 r)).trans ?_
  exact Finset.sum_congr rfl fun k _ =>
    congrArg Z (funext fun a => Fin.ext (by match a with | ⟨0, _⟩ => rfl | ⟨1, _⟩ => rfl))

/-! ## The first payload: x · W₁ -/

theorem pay1_apply (x : Vec Ideal S10000x128 .f32) (W : Vec Ideal S128x128 .f32) (i : Fin 10000) (j : Fin 128) :
    k0_pay1 (F := Ideal) x W (ix2 i j) = ∑ k : Fin 128, x (ix2 i k) * W (ix2 k j) := by
  unfold k0_pay1
  show shapeCast S10000x128 (matmul (F := Ideal) dot_S10000x128_S128x128_S10000x128_1_0_0_1_n_n none x W
      (constant S10000x128 .f32 0x00000000#32)) shapeCasts_S10000x128_S10000x128 (ix2 i j) = _
  rw [shapeCast_self]
  exact mm1_apply x W i j

/-! ## The second payload: the rectified first convolution of the block's rows, times W₂ -/

/-- Row r of the block, hidden unit k: max (∑ l, a (r, l) · s (l, k) + b (0, k)) with the zero word. -/
theorem hiddenRow_apply (a : FVec Ideal S400x10000 .f32) (s : FVec Ideal S10000x128 .f32) (b : FVec Ideal S1x128 .f32)
    (r : Fin 400) (k : Fin 128) :
    maximumf (addf (matmul (F := Ideal) dot_S400x10000_S10000x128_S400x128_1_0_0_1_n_n none a s (constant S400x128 .f32 0x00000000#32))
        (broadcastTo S400x128 (shapeCast S1x128 b shapeCasts_S1x128_S1x128) broadcasts_S1x128_S400x128))
      (broadcast S400x128 (Scalar.ofBits (F := Ideal) .f32 0x00000000#32)) (ix2 r k)
      = max ((∑ l : Fin 10000, a (ix2 r l) * s (ix2 l k)) + b (ix2 (0 : Fin 1) k)) (Ideal.ofBits .f32 0x00000000#32) := by
  rw [maximumf_apply, addf_apply, mm2_apply, broadcast_apply, shapeCast_self, broadcastTo_1b_ab_apply]
  rfl

theorem pay2_apply (a : Vec Ideal S400x10000 .f32) (s : Vec Ideal S10000x128 .f32) (b : Vec Ideal S1x128 .f32)
    (W : Vec Ideal S128x40 .f32) (r : Fin 400) (j : Fin 40) :
    k0_pay2 (F := Ideal) a s b W (ix2 r j)
      = ∑ k : Fin 128, max ((∑ l : Fin 10000, a (ix2 r l) * s (ix2 l k)) + b (ix2 0 k)) (Ideal.ofBits .f32 0x00000000#32) * W (ix2 k j) := by
  unfold k0_pay2
  show shapeCast S400x40 (matmul (F := Ideal) dot_S400x128_S128x40_S400x40_1_0_0_1_n_n none
      (maximumf (addf (matmul (F := Ideal) dot_S400x10000_S10000x128_S400x128_1_0_0_1_n_n none a s (constant S400x128 .f32 0x00000000#32))
          (broadcastTo S400x128 (shapeCast S1x128 b shapeCasts_S1x128_S1x128) broadcasts_S1x128_S400x128))
        (broadcast S400x128 (Scalar.ofBits (F := Ideal) .f32 0x00000000#32)))
      W (constant S400x40 .f32 0x00000000#32)) shapeCasts_S400x40_S400x40 (ix2 r j) = _
  rw [shapeCast_self, mm3_apply]
  exact Finset.sum_congr rfl fun k _ => congrArg (· * W (ix2 k j)) (hiddenRow_apply a s b r k)

/-! ## The third payload: the second convolution of the block's rows and its row-wise log-softmax -/

/-- Row r of the block, class j: ∑ l, a (r, l) · s (l, j) + b (0, j). -/
theorem scoreRow_apply (a : FVec Ideal S400x10000 .f32) (s : FVec Ideal S10000x40 .f32) (b : FVec Ideal S1x40 .f32)
    (r : Fin 400) (j : Fin 40) :
    addf (matmul (F := Ideal) dot_S400x10000_S10000x40_S400x40_1_0_0_1_n_n none a s (constant S400x40 .f32 0x00000000#32))
        (broadcastTo S400x40 (shapeCast S1x40 b shapeCasts_S1x40_S1x40) broadcasts_S1x40_S400x40) (ix2 r j)
      = (∑ l : Fin 10000, a (ix2 r l) * s (ix2 l j)) + b (ix2 (0 : Fin 1) j) := by
  rw [addf_apply, mm4_apply, shapeCast_self, broadcastTo_1b_ab_apply]

/-- An array less its row maxima, the maxima taken along the rows, kept as a column and repeated along the rows. -/
abbrev lessRowMax (Z : FVec Ideal S400x40 .f32) : FVec Ideal S400x40 .f32 :=
  subf Z (broadcastTo S400x40 (shapeCast S400x1
    (multiReduction (F := Ideal) .maximumf [1] S400 Z 0xFF800000#32 reduces_S400x40_S400 (.inl rfl) rfl)
    shapeCasts_S400_S400x1) broadcasts_S400x1_S400x40)

/-- The logarithm of the row sums of the exponentials, kept as a column and repeated along the rows. -/
abbrev logRowSumExp (D : FVec Ideal S400x40 .f32) : FVec Ideal S400x40 .f32 :=
  broadcastTo S400x40 (log (shapeCast S400x1
    (multiReduction (F := Ideal) .add [1] S400 (exp D) 0x00000000#32 reduces_S400x40_S400 (.inl rfl) rfl)
    shapeCasts_S400_S400x1)) broadcasts_S400x1_S400x40

theorem lessRowMax_apply (Z : FVec Ideal S400x40 .f32) (r : Fin 400) (j : Fin 40) :
    lessRowMax Z (ix2 r j)
      = Z (ix2 r j) - (Finset.univ : Finset (Fin 40)).fold max (Ideal.ofBits .f32 0xFF800000#32) (fun j' => Z (ix2 r j')) := by
  unfold lessRowMax
  rw [subf_apply, alongRow_apply, column_apply, rowMax_apply]

theorem logRowSumExp_apply (D : FVec Ideal S400x40 .f32) (r : Fin 400) (j : Fin 40) :
    logRowSumExp D (ix2 r j) = Ideal.log (∑ j' : Fin 40, Ideal.exp (D (ix2 r j'))) := by
  unfold logRowSumExp
  rw [alongRow_apply]
  show Ideal.log (shapeCast S400x1
    (multiReduction (F := Ideal) .add [1] S400 (exp D) 0x00000000#32 reduces_S400x40_S400 (.inl rfl) rfl)
    shapeCasts_S400_S400x1 (ix2 r (0 : Fin 1))) = _
  rw [column_apply, rowSum_apply]
  rfl

/-- The row-wise log-softmax as the kernel spells it, at (r, j). -/
theorem logSoftmax_apply (Z : FVec Ideal S400x40 .f32) (r : Fin 400) (j : Fin 40) :
    subf (lessRowMax Z) (logRowSumExp (lessRowMax Z)) (ix2 r j)
      = (Z (ix2 r j) - (Finset.univ : Finset (Fin 40)).fold max (Ideal.ofBits .f32 0xFF800000#32) (fun j' => Z (ix2 r j')))
        - Ideal.log (∑ j'' : Fin 40, Ideal.exp (Z (ix2 r j'')
            - (Finset.univ : Finset (Fin 40)).fold max (Ideal.ofBits .f32 0xFF800000#32) (fun j' => Z (ix2 r j')))) := by
  rw [subf_apply, logRowSumExp_apply, lessRowMax_apply]
  simp only [lessRowMax_apply]

theorem pay3_apply (a : Vec Ideal S400x10000 .f32) (s : Vec Ideal S10000x40 .f32) (b : Vec Ideal S1x40 .f32)
    (r : Fin 400) (j : Fin 40) :
    k0_pay3 (F := Ideal) a s b (ix2 r j)
      = ((∑ l : Fin 10000, a (ix2 r l) * s (ix2 l j)) + b (ix2 0 j)
          - (Finset.univ : Finset (Fin 40)).fold max (Ideal.ofBits .f32 0xFF800000#32) (fun j' => (∑ l : Fin 10000, a (ix2 r l) * s (ix2 l j')) + b (ix2 0 j')))
        - Ideal.log (∑ j'' : Fin 40, Ideal.exp ((∑ l : Fin 10000, a (ix2 r l) * s (ix2 l j'')) + b (ix2 0 j'')
            - (Finset.univ : Finset (Fin 40)).fold max (Ideal.ofBits .f32 0xFF800000#32) (fun j' => (∑ l : Fin 10000, a (ix2 r l) * s (ix2 l j')) + b (ix2 0 j')))) := by
  unfold k0_pay3
  refine (logSoftmax_apply (addf (matmul (F := Ideal) dot_S400x10000_S10000x40_S400x40_1_0_0_1_n_n none a s (constant S400x40 .f32 0x00000000#32))
    (broadcastTo S400x40 (shapeCast S1x40 b shapeCasts_S1x40_S1x40) broadcasts_S1x40_S400x40)) r j).trans ?_
  simp only [scoreRow_apply]

end Cert.KernelIdeal.Pay

end
-- ==== Proof.KBlocks.lean ====
/-
  THE INPUT BLOCKS AS ENTRIES OF THE ARGUMENT ARRAYS.

  The kernel runs over 50 grid points: two phases of 25 row blocks each (points 0 … 24 the first phase, 25 … 49 the
  second). At every point each input window hands the body one block of its array; this module says which entry of
  which ARGUMENT each entry of such a block is, for any float instance.

  * x (10000 × 128), W1 (128 × 128) and W2 (128 × 40) are staged whole: their block index is (0, 0) at every point, so
    the block's entry y is the argument's entry y.
  * adj (10000 × 10000) is staged 400 full rows at a time. At point t of the first phase the block is row block t:
    entry (r, k) of the block is adj (400·t + r, k). In the second phase the row blocks come in reverse order, point t
    reading row block 49 − t: entry (r, k) is adj (400·(49 − t) + r, k).
  * The two biases reach the region as one-row arrays: b1 (a vector of 128 entries) reshaped to 1 × 128 and b2 (40
    entries) reshaped to 1 × 40 before the region is entered, each then staged whole. A reshape keeps the row-major
    order, and the row-major position of (0, j) in a one-row array is j: entry (0, j) of the block is entry j of the bias.

  In every case a block's coordinate on an axis is (block index) × (block size) + (coordinate inside the block); the
  block indices are decided once over the 50 points, the rest is linear arithmetic.
-/
import proofs.«122475_g28243704939219_cont_9to1_2045_20_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe
open Idealize.ShloMosaic.ValueIdx Idealize.SL.Sem

variable {F : FTy → Type} [FloatOps F]
variable (m : (ℓ : Loc nD τ sig) → Buf (Elt F) ℓ)

/-! ## The block indices over the grid -/

/-- The block index of each window that stages its whole array (x, W1, the reshaped b1, W2, the reshaped b2) is (0, 0)
    at every grid point. -/
theorem idx_whole : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The adjacency window's block index: the point's own row block in the first phase (points 0 … 24), the row blocks in
    reverse order in the second (point t reads row block 49 − t); always column block 0. -/
theorem idx_adj : ∀ t : Fin cfg0.N,
    win0_1.index t (0 : Fin 2) = (if t.val < 25 then t.val else 49 - t.val) ∧ win0_1.index t (1 : Fin 2) = 0 :=
  (by decide +kernel : ∀ t : Fin grid0.N, _)

/-! ## The windows staged whole: x, W1, W2 -/

/-- The block of x at any point is x itself: entry y of the block is x at y. -/
theorem x_apply (c : Dev nD) (t : Fin cfg0.N) (y : S10000x128.Idx) :
    (iblk m c 0 t : Vec F S10000x128 .f32) y = m ((c : Thread nD τ).loc main_arg0) y := by
  unfold iblk
  rw [← V_main_arg0 m c]
  show V m c main_arg0 (((cfg0.win 0).blk t).view.emb y) = V m c main_arg0 y
  obtain ⟨e0, e1, -⟩ := idx_whole t
  refine congrArg (V m c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of W1 at any point is W1 itself. -/
theorem w1_apply (c : Dev nD) (t : Fin cfg0.N) (y : S128x128.Idx) :
    (iblk m c 2 t : Vec F S128x128 .f32) y = m ((c : Thread nD τ).loc main_arg2) y := by
  unfold iblk
  rw [← V_main_arg2 m c]
  show V m c main_arg2 (((cfg0.win 2).blk t).view.emb y) = V m c main_arg2 y
  obtain ⟨-, -, e0, e1, -⟩ := idx_whole t
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The block of W2 at any point is W2 itself. -/
theorem w2_apply (c : Dev nD) (t : Fin cfg0.N) (y : S128x40.Idx) :
    (iblk m c 4 t : Vec F S128x40 .f32) y = m ((c : Thread nD τ).loc main_arg4) y := by
  unfold iblk
  rw [← V_main_arg4 m c]
  show V m c main_arg4 (((cfg0.win 4).blk t).view.emb y) = V m c main_arg4 y
  obtain ⟨-, -, -, -, -, -, e0, e1, -⟩ := idx_whole t
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 40 + 1 * (y 1).val = (y 1).val; omega

/-! ## The adjacency matrix, 400 rows at a time -/

/-- First phase (t < 25): the block at point t is rows 400·t … 400·t + 399 of adj. -/
theorem adj_apply_first (c : Dev nD) (t : Fin cfg0.N) (ht : t.val < 25) (r : Fin 400) (k : Fin 10000) :
    (iblk m c 1 t : Vec F S400x10000 .f32) (ix2 r k) = m ((c : Thread nD τ).loc main_arg1) (ix2 ⟨400 * t.val + r.val, by omega⟩ k) := by
  unfold iblk
  rw [← V_main_arg1 m c]
  show V m c main_arg1 (((cfg0.win 1).blk t).view.emb (ix2 r k)) = V m c main_arg1 _
  obtain ⟨e0, e1⟩ := idx_adj t
  rw [if_pos ht] at e0
  refine congrArg (V m c main_arg1) (funext fun a => Fin.ext ?_)
  match a with
  | ⟨0, _⟩ => show win0_1.index t (0 : Fin 2) * 400 + 1 * r.val = 400 * t.val + r.val; omega
  | ⟨1, _⟩ => show win0_1.index t (1 : Fin 2) * 10000 + 1 * k.val = k.val; omega

/-- Second phase (25 ≤ t): the block at point t is rows 400·(49 − t) … 400·(49 − t) + 399 of adj. -/
theorem adj_apply_second (c : Dev nD) (t : Fin cfg0.N) (ht : 25 ≤ t.val) (r : Fin 400) (k : Fin 10000) :
    (iblk m c 1 t : Vec F S400x10000 .f32) (ix2 r k) = m ((c : Thread nD τ).loc main_arg1) (ix2 ⟨400 * (49 - t.val) + r.val, by have := t.isLt; have : cfg0.N = 50 := N_0; omega⟩ k) := by
  unfold iblk
  rw [← V_main_arg1 m c]
  show V m c main_arg1 (((cfg0.win 1).blk t).view.emb (ix2 r k)) = V m c main_arg1 _
  obtain ⟨e0, e1⟩ := idx_adj t
  rw [if_neg (Nat.not_lt.2 ht)] at e0
  refine congrArg (V m c main_arg1) (funext fun a => Fin.ext ?_)
  match a with
  | ⟨0, _⟩ => show win0_1.index t (0 : Fin 2) * 400 + 1 * r.val = 400 * (49 - t.val) + r.val; omega
  | ⟨1, _⟩ => show win0_1.index t (1 : Fin 2) * 10000 + 1 * k.val = k.val; omega

/-! ## The biases, reshaped to one row before the region -/

/-- A vector of 128 entries viewed as one row [1,128]: entry (0, j) is entry j (both at row-major position j). -/
theorem row_of_vec128 {α : Type} (x : S128.Idx → α) (h : S128.ShapeCasts S1x128) (j : Fin 128) :
    shapeCast S1x128 x h (ix2 0 j) = x (ix1 j) := by
  refine shapeCast_apply x h _ _ ?_
  rw [Shape.rowMajor_val_two, Shape.rowMajor_val_one]
  show j.val = 0 * 128 + j.val
  omega

/-- A vector of 40 entries viewed as one row [1,40]: entry (0, j) is entry j. -/
theorem row_of_vec40 {α : Type} (x : S40.Idx → α) (h : S40.ShapeCasts S1x40) (j : Fin 40) :
    shapeCast S1x40 x h (ix2 0 j) = x (ix1 j) := by
  refine shapeCast_apply x h _ _ ?_
  rw [Shape.rowMajor_val_two, Shape.rowMajor_val_one]
  show j.val = 0 * 40 + j.val
  omega

/-- The one-row array [1,128] the region finds is the launched b1 in row-major order. -/
theorem V_b1 (c : Dev nD) :
    (V m c main_v0 : S1x128.Idx → Elt F .f32) = shapeCast S1x128 (m ((c : Thread nD τ).loc main_arg3)) shapeCasts_S128_S1x128 := by
  dsimp only [Gen.V, Gen.hostOps0]
  after_results
  rfl

/-- The one-row array [1,40] the region finds is the launched b2 in row-major order. -/
theorem V_b2 (c : Dev nD) :
    (V m c main_v1 : S1x40.Idx → Elt F .f32) = shapeCast S1x40 (m ((c : Thread nD τ).loc main_arg5)) shapeCasts_S40_S1x40 := by
  dsimp only [Gen.V, Gen.hostOps0]
  after_results
  rfl

/-- The block of the reshaped b1 at any point: entry (0, j) is b1 at j. -/
theorem b1_apply (c : Dev nD) (t : Fin cfg0.N) (j : Fin 128) :
    (iblk m c 3 t : Vec F S1x128 .f32) (ix2 0 j) = m ((c : Thread nD τ).loc main_arg3) (ix1 j) := by
  unfold iblk
  show V m c main_v0 (((cfg0.win 3).blk t).view.emb (ix2 0 j)) = _
  obtain ⟨-, -, -, -, e0, e1, -⟩ := idx_whole t
  have hemb : ((cfg0.win 3).blk t).view.emb (ix2 (0 : Fin 1) j) = (ix2 (0 : Fin 1) j : S1x128.Idx) := by
    funext a; apply Fin.ext
    match a with
    | ⟨0, _⟩ => show win0_3.index t (0 : Fin 2) * 1 + 1 * 0 = 0; omega
    | ⟨1, _⟩ => show win0_3.index t (1 : Fin 2) * 128 + 1 * j.val = j.val; omega
  rw [hemb, V_b1 m c]
  exact row_of_vec128 _ _ j

/-- The block of the reshaped b2 at any point: entry (0, j) is b2 at j. -/
theorem b2_apply (c : Dev nD) (t : Fin cfg0.N) (j : Fin 40) :
    (iblk m c 5 t : Vec F S1x40 .f32) (ix2 0 j) = m ((c : Thread nD τ).loc main_arg5) (ix1 j) := by
  unfold iblk
  show V m c main_v1 (((cfg0.win 5).blk t).view.emb (ix2 0 j)) = _
  obtain ⟨-, -, -, -, -, -, -, -, e0, e1⟩ := idx_whole t
  have hemb : ((cfg0.win 5).blk t).view.emb (ix2 (0 : Fin 1) j) = (ix2 (0 : Fin 1) j : S1x40.Idx) := by
    funext a; apply Fin.ext
    match a with
    | ⟨0, _⟩ => show win0_5.index t (0 : Fin 2) * 1 + 1 * 0 = 0; omega
    | ⟨1, _⟩ => show win0_5.index t (1 : Fin 2) * 40 + 1 * j.val = j.val; omega
  rw [hemb, V_b2 m c]
  exact row_of_vec40 _ _ j

end Cert.KernelIdeal.Blocks

end
-- ==== Proof.Spec.lean ====
/-
  The two-layer graph convolution with a row-wise log-softmax, as ONE function of the six argument arrays,
  element by element, over the extended reals:

    support₁ = x · W₁                       hidden  = max (adj · support₁ + b₁) 0
    support₂ = hidden · W₂                   logits  = adj · support₂ + b₂
    result i j = (logits i j − M i) − log (∑ j', exp (logits i j' − M i)),     M i = max over j of logits i j.

  Row i of the result reads row i of adj, and through support₂ every row of adj, all of x, W₁, W₂, b₁ and b₂.
  The two float literals (the zero of the rectifier and the −∞ the row maximum starts from) are kept as their
  binary words: both programs spell the same words, so they are never evaluated.
-/
import Idealize.ShloMosaic.PureOps.Ideal
import Idealize.ShloMosaic.Lib.ValueIdx

noncomputable section

namespace Cert.Gcn

open Idealize.ShloMosaic Idealize.ShloMosaic.ValueIdx

/-- A matrix, and a vector, of extended reals over literal extents. -/
abbrev Mat (r c : Nat) : Type := (⟨2, ![r, c]⟩ : Shape).Idx → EReal
abbrev Vect (n : Nat) : Type := (⟨1, ![n]⟩ : Shape).Idx → EReal

variable (x : Mat 10000 128) (adj : Mat 10000 10000) (W1 : Mat 128 128) (b1 : Vect 128) (W2 : Mat 128 40) (b2 : Vect 40)

/-- The first support matrix, x · W₁. -/
def support1 (i : Fin 10000) (j : Fin 128) : EReal := ∑ k : Fin 128, x (ix2 i k) * W1 (ix2 k j)

/-- The hidden layer: the rectified first graph convolution, max (adj · support₁ + b₁) 0. -/
def hidden (i : Fin 10000) (j : Fin 128) : EReal :=
  max ((∑ k : Fin 10000, adj (ix2 i k) * support1 x W1 k j) + b1 (ix1 j)) (Ideal.ofBits .f32 0x00000000#32)

/-- The second support matrix, hidden · W₂. -/
def support2 (i : Fin 10000) (j : Fin 40) : EReal := ∑ k : Fin 128, hidden x adj W1 b1 i k * W2 (ix2 k j)

/-- The class scores, adj · support₂ + b₂. -/
def logits (i : Fin 10000) (j : Fin 40) : EReal :=
  (∑ k : Fin 10000, adj (ix2 i k) * support2 x adj W1 b1 W2 k j) + b2 (ix1 j)

/-- A row's largest score: the fold of max over the forty classes, from −∞. -/
def rowMax (i : Fin 10000) : EReal :=
  (Finset.univ : Finset (Fin 40)).fold max (Ideal.ofBits .f32 0xFF800000#32) (fun j => logits x adj W1 b1 W2 b2 i j)

/-- A score less its row's largest. -/
def shifted (i : Fin 10000) (j : Fin 40) : EReal := logits x adj W1 b1 W2 b2 i j - rowMax x adj W1 b1 W2 b2 i

/-- The log-softmax of the class scores along each row. -/
def result : Mat 10000 40 := fun idx =>
  shifted x adj W1 b1 W2 b2 (idx 0) (idx 1) - Ideal.log (∑ j : Fin 40, Ideal.exp (shifted x adj W1 b1 W2 b2 (idx 0) j))

end Cert.Gcn

end
-- ==== Proof.KValue.lean ====
/-
  The kernel's result array is the specification of the argument arrays, at the ideal instance.

  Through the windows' blocks the three payloads are the specification's stages, element by element: the first scratch
  matrix is support₁ = x · W₁ (its payload is one matrix product); row r of the block that point t of the first phase
  stores into the second scratch matrix is row 400 t + r of support₂ (the adjacency panel of the point is rows
  [400 t, 400 t + 400) of adj: a product over the panel's row, the bias, the rectifier, a product with W₂); row r of the
  block that point t of the second phase leaves is row 400 (49 − t) + r of the result (the panel is rows
  [400 (49 − t), …) of adj: a product with support₂, the bias, the row's largest score taken from −∞, the shift, the
  exponentials' sum, its logarithm). No algebraic law is used: the kernel tiles the rows of adj and nothing else, and a
  row of a matrix product reads one row of its left factor.
-/
import proofs.«122475_g28243704939219_cont_9to1_2045_20_alg».proof.Proof.KFinal
import proofs.«122475_g28243704939219_cont_9to1_2045_20_alg».proof.Proof.KPay
import proofs.«122475_g28243704939219_cont_9to1_2045_20_alg».proof.Proof.KBlocks
import proofs.«122475_g28243704939219_cont_9to1_2045_20_alg».proof.Proof.Spec

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

-- The six argument arrays as launched.
set_option quotPrecheck false
local notation "aX" => m ((c : Thread nD τ).loc main_arg0)
local notation "aA" => m ((c : Thread nD τ).loc main_arg1)
local notation "aW1" => m ((c : Thread nD τ).loc main_arg2)
local notation "aB1" => m ((c : Thread nD τ).loc main_arg3)
local notation "aW2" => m ((c : Thread nD τ).loc main_arg4)
local notation "aB2" => m ((c : Thread nD τ).loc main_arg5)

/-- The first scratch matrix is the first support matrix. -/
theorem s1_apply (i : Fin 10000) (j : Fin 128) :
    s1 (F := Ideal) m c (ix2 i j) = Cert.Gcn.support1 aX aW1 i j := by
  unfold s1
  refine (Pay.pay1_apply (xBlk m c (pt 0 (by omega))) (w1Blk m c (pt 0 (by omega))) i j).trans ?_
  unfold Cert.Gcn.support1
  refine Finset.sum_congr rfl fun k _ => ?_
  rw [show xBlk m c (pt 0 (by omega)) (ix2 i k) = aX (ix2 i k) from Blocks.x_apply m c _ _,
    show w1Blk m c (pt 0 (by omega)) (ix2 k j) = aW1 (ix2 k j) from Blocks.w1_apply m c _ _]

/-- The second scratch matrix is the second support matrix: row i is stored by point i / 400 of the first phase, whose
    adjacency panel holds row i of adj at its row i % 400. -/
theorem s2_apply (i : Fin 10000) (j : Fin 40) :
    s2 (F := Ideal) m c (ix2 i j) = Cert.Gcn.support2 aX aA aW1 aB1 aW2 i j := by
  have hi : i.val < 10000 := i.isLt
  have hr : i.val % 400 < 400 := Nat.mod_lt _ (by omega)
  have ht : (pt (i.val / 400) (by omega)).val < 25 := by show i.val / 400 < 25; omega
  have e : s2 (F := Ideal) m c (ix2 i j)
      = k0_pay2 (adjBlk m c (pt (i.val / 400) (by omega))) (s1 m c) (b1Blk m c (pt (i.val / 400) (by omega)))
          (w2Blk m c (pt (i.val / 400) (by omega))) (ix2 ⟨i.val % 400, hr⟩ j) :=
    s2_rows m c (pt (i.val / 400) (by omega)) (ix2 i j) (ix2 ⟨i.val % 400, hr⟩ j)
      (by show i.val = 400 * (i.val / 400) + i.val % 400; omega) rfl
  rw [e]
  refine (Pay.pay2_apply _ _ _ _ ⟨i.val % 400, hr⟩ j).trans ?_
  unfold Cert.Gcn.support2 Cert.Gcn.hidden
  refine Finset.sum_congr rfl fun k _ => ?_
  rw [show b1Blk m c (pt (i.val / 400) (by omega)) (ix2 0 k) = aB1 (ix1 k) from Blocks.b1_apply m c _ k,
    show w2Blk m c (pt (i.val / 400) (by omega)) (ix2 k j) = aW2 (ix2 k j) from Blocks.w2_apply m c _ _]
  refine congrArg (fun z => max (z + aB1 (ix1 k)) (Ideal.ofBits .f32 0x00000000#32) * aW2 (ix2 k j)) ?_
  refine Finset.sum_congr rfl fun l _ => ?_
  have hlt : 400 * (pt (i.val / 400) (by omega)).val + i.val % 400 < 10000 := by
    show 400 * (i.val / 400) + i.val % 400 < 10000; omega
  have ea : (ix2 (⟨400 * (pt (i.val / 400) (by omega)).val + i.val % 400, hlt⟩ : Fin 10000) l : S10000x10000.Idx) = ix2 i l :=
    congrArg (fun a => ix2 a l) (Fin.ext (by show 400 * (i.val / 400) + i.val % 400 = i.val; omega))
  rw [show adjBlk m c (pt (i.val / 400) (by omega)) (ix2 ⟨i.val % 400, hr⟩ l)
        = aA (ix2 ⟨400 * (pt (i.val / 400) (by omega)).val + i.val % 400, hlt⟩ l)
      from Blocks.adj_apply_first m c _ ht ⟨i.val % 400, hr⟩ l, s1_apply m c l k, ea]

/-- The third payload at an element, once the scores of its row are known: the row's log-softmax. -/
theorem lsm_of_rows (a : Vec Ideal S400x10000 .f32) (s : Vec Ideal S10000x40 .f32) (b : Vec Ideal S1x40 .f32) (r : Fin 400)
    (j : Fin 40) (L : Fin 40 → EReal)
    (hL : ∀ j' : Fin 40, (∑ l : Fin 10000, a (ix2 r l) * s (ix2 l j')) + b (ix2 0 j') = L j') :
    k0_pay3 (F := Ideal) a s b (ix2 r j)
      = (L j - (Finset.univ : Finset (Fin 40)).fold max (Ideal.ofBits .f32 0xFF800000#32) L)
        - Ideal.log (∑ j'' : Fin 40, Ideal.exp (L j'' - (Finset.univ : Finset (Fin 40)).fold max (Ideal.ofBits .f32 0xFF800000#32) L)) := by
  rw [Pay.pay3_apply]
  simp only [hL]

/-- THE RESULT ARRAY IS THE SPECIFICATION: row i is left by point 49 − i / 400 of the second phase, whose adjacency
    panel holds row i of adj at its row i % 400. -/
theorem outArr_eq : outArr (F := Ideal) m c = Cert.Gcn.result aX aA aW1 aB1 aW2 aB2 := by
  funext y
  obtain ⟨i, j, rfl⟩ : ∃ (i : Fin 10000) (j : Fin 40), y = ix2 i j := ⟨y 0, y 1, eq_ix2 y⟩
  have hi : i.val < 10000 := i.isLt
  have hr : i.val % 400 < 400 := Nat.mod_lt _ (by omega)
  have ht : 25 ≤ (pt (49 - i.val / 400) (by omega)).val := by show 25 ≤ 49 - i.val / 400; omega
  have e : outArr (F := Ideal) m c (ix2 i j)
      = k0_pay3 (adjBlk m c (pt (49 - i.val / 400) (by omega))) (s2 m c) (b2Blk m c (pt (49 - i.val / 400) (by omega)))
          (ix2 ⟨i.val % 400, hr⟩ j) :=
    outArr_rows m c (pt (49 - i.val / 400) (by omega)) ht (ix2 i j) (ix2 ⟨i.val % 400, hr⟩ j)
      (by show i.val = 400 * (49 - (49 - i.val / 400)) + i.val % 400; omega) rfl
  rw [e]
  have hz : ∀ j' : Fin 40,
      (∑ l : Fin 10000, adjBlk m c (pt (49 - i.val / 400) (by omega)) (ix2 ⟨i.val % 400, hr⟩ l) * s2 (F := Ideal) m c (ix2 l j'))
          + b2Blk m c (pt (49 - i.val / 400) (by omega)) (ix2 0 j')
        = Cert.Gcn.logits aX aA aW1 aB1 aW2 aB2 i j' := by
    intro j'
    unfold Cert.Gcn.logits
    rw [show b2Blk m c (pt (49 - i.val / 400) (by omega)) (ix2 0 j') = aB2 (ix1 j') from Blocks.b2_apply m c _ j']
    refine congrArg (· + aB2 (ix1 j')) ?_
    refine Finset.sum_congr rfl fun l _ => ?_
    have hlt : 400 * (49 - (pt (49 - i.val / 400) (by omega)).val) + i.val % 400 < 10000 := by
      show 400 * (49 - (49 - i.val / 400)) + i.val % 400 < 10000; omega
    have ea : (ix2 (⟨400 * (49 - (pt (49 - i.val / 400) (by omega)).val) + i.val % 400, hlt⟩ : Fin 10000) l : S10000x10000.Idx) = ix2 i l :=
      congrArg (fun a => ix2 a l) (Fin.ext (by show 400 * (49 - (49 - i.val / 400)) + i.val % 400 = i.val; omega))
    rw [show adjBlk m c (pt (49 - i.val / 400) (by omega)) (ix2 ⟨i.val % 400, hr⟩ l)
          = aA (ix2 ⟨400 * (49 - (pt (49 - i.val / 400) (by omega)).val) + i.val % 400, hlt⟩ l)
        from Blocks.adj_apply_second m c _ ht ⟨i.val % 400, hr⟩ l, s2_apply m c l j', ea]
  exact lsm_of_rows _ _ _ _ j (fun j' => Cert.Gcn.logits aX aA aW1 aB1 aW2 aB2 i j') hz

end Cert.KernelIdeal.KValue

end
-- ==== Proof.RefValue.lean ====
/-
  The reference side: the reference program's result is the specification, element by element.

  Over the extended reals, with every operation exact, the reference computes
      s₁ = x · W₁,    h = max (adj · s₁ + b₁) 0,    s₂ = h · W₂,    z = adj · s₂ + b₂,
  the two bias vectors repeated down the rows and the rectifier's zero repeated over the whole array, and then the
  log-softmax of z along each row:
      M i = max (−∞) (the maximum of row i of z, a fold of max from −∞ over the forty classes),
      d i j = z i j − M i,        result i j = d i j − log (0 + ∑ j', exp (d i j')).

  Read at one element, a matrix product is the sum over its contracted coordinate of the products of the operands'
  elements, a repeated vector or scalar is the operand at the coordinates it keeps, and an elementwise operation acts
  on the elements. So, one specification function at a time: s₁ at (i, j) is support₁ i j; h is hidden; s₂ is
  support₂; z is logits. The maximum of row i is the fold of max, from the −∞ word, over j ↦ logits i j, and the
  maximum of that fold with its own starting value is the fold again, because a fold of max is at least its starting
  value: that is rowMax i. Hence d is shifted. The sum of the exponentials starts from the zero word, which is the
  number 0 and drops out of the sum, so the last stage is result. The −∞ word and the rectifier's zero word are the
  same words on both sides and are never evaluated.

  The reading of the reference one operation at a time is the imported generated module; what is written here are
  the coordinates of its index functions, the seven stages above, and the row maximum, which that module leaves unread.
-/
import proofs.«122475_g28243704939219_cont_9to1_2045_20_alg».proof.Proof.RefRead
import proofs.«122475_g28243704939219_cont_9to1_2045_20_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-! ## The index functions of the reading, by coordinates

An element (i, j) of a product reads its left operand at (i, k) and its right operand at (k, j); a bias repeated down the
rows is read at j; a per-row value repeated along the row is read at i; the row sum at i reads (i, k). -/

theorem lidx_v0 (i : Fin 10000) (j k : Fin 128) : lidx_main_v0 (ix2 i j) k = ix2 i k :=
  funext fun a => Fin.ext (by match a with | ⟨0, _⟩ => rfl | ⟨1, _⟩ => rfl)
theorem ridx_v0 (i : Fin 10000) (j k : Fin 128) : ridx_main_v0 (ix2 i j) k = ix2 k j :=
  funext fun a => Fin.ext (by match a with | ⟨0, _⟩ => rfl | ⟨1, _⟩ => rfl)
theorem lidx_v1 (i : Fin 10000) (j : Fin 128) (k : Fin 10000) : lidx_main_v1 (ix2 i j) k = ix2 i k :=
  funext fun a => Fin.ext (by match a with | ⟨0, _⟩ => rfl | ⟨1, _⟩ => rfl)
theorem ridx_v1 (i : Fin 10000) (j : Fin 128) (k : Fin 10000) : ridx_main_v1 (ix2 i j) k = ix2 k j :=
  funext fun a => Fin.ext (by match a with | ⟨0, _⟩ => rfl | ⟨1, _⟩ => rfl)
theorem idx_v23 (i : Fin 10000) (j : Fin 128) : idx_main_v2 (idx_main_v3 (ix2 i j)) = ix1 j :=
  funext fun a => Fin.ext (by match a with | ⟨0, _⟩ => rfl)
theorem lidx_v6 (i : Fin 10000) (j : Fin 40) (k : Fin 128) : lidx_main_v6 (ix2 i j) k = ix2 i k :=
  funext fun a => Fin.ext (by match a with | ⟨0, _⟩ => rfl | ⟨1, _⟩ => rfl)
theorem ridx_v6 (i : Fin 10000) (j : Fin 40) (k : Fin 128) : ridx_main_v6 (ix2 i j) k = ix2 k j :=
  funext fun a => Fin.ext (by match a with | ⟨0, _⟩ => rfl | ⟨1, _⟩ => rfl)
theorem lidx_v7 (i : Fin 10000) (j : Fin 40) (k : Fin 10000) : lidx_main_v7 (ix2 i j) k = ix2 i k :=
  funext fun a => Fin.ext (by match a with | ⟨0, _⟩ => rfl | ⟨1, _⟩ => rfl)
theorem ridx_v7 (i : Fin 10000) (j : Fin 40) (k : Fin 10000) : ridx_main_v7 (ix2 i j) k = ix2 k j :=
  funext fun a => Fin.ext (by match a with | ⟨0, _⟩ => rfl | ⟨1, _⟩ => rfl)
theorem idx_v89 (i : Fin 10000) (j : Fin 40) : idx_main_v8 (idx_main_v9 (ix2 i j)) = ix1 j :=
  funext fun a => Fin.ext (by match a with | ⟨0, _⟩ => rfl)
theorem idx_c34 (i : Fin 10000) (j : Fin 40) : idx_main_call1_v3 (idx_main_call1_v4 (ix2 i j)) = ix1 i :=
  funext fun a => Fin.ext (by match a with | ⟨0, _⟩ => rfl)
theorem idx_c810 (i : Fin 10000) (j : Fin 40) : idx_main_call1_v8 (idx_main_call1_v10 (ix2 i j)) = ix1 i :=
  funext fun a => Fin.ext (by match a with | ⟨0, _⟩ => rfl)
theorem idx_c7 (i : Fin 10000) (k : Fin 40) : idx_main_call1_v7 (ix1 i) k = ix2 i k :=
  funext fun a => Fin.ext (by match a with | ⟨0, _⟩ => rfl | ⟨1, _⟩ => rfl)

/-! ## The stages, one specification function at a time -/

/-- The first product, element (i, j): the sum over k of x (i, k) · W₁ (k, j). -/
theorem support1_eq (i : Fin 10000) (j : Fin 128) : val_main_v0 (F := Ideal) x0 x2 (ix2 i j) = Cert.Gcn.support1 x0 x2 i j := by
  rw [val_main_v0_apply]
  unfold Cert.Gcn.support1
  simp only [lidx_v0, ridx_v0]

/-- The rectified first convolution. -/
theorem hidden_eq (i : Fin 10000) (j : Fin 128) :
    val_main_v5 (F := Ideal) x0 x1 x2 x3 (ix2 i j) = Cert.Gcn.hidden x0 x1 x2 x3 i j := by
  rw [val_main_v5_apply, val_main_v4_apply, val_main_v1_apply, val_main_v3_apply, val_main_v2_apply,
    val_main_call0_v0_apply, val_main_call0_cst_apply]
  unfold Cert.Gcn.hidden
  simp only [Ideal.maximumf_def, Ideal.addf_def, Ideal.ofBits_def, lidx_v1, ridx_v1, idx_v23, support1_eq]

/-- The second product. -/
theorem support2_eq (i : Fin 10000) (j : Fin 40) :
    val_main_v6 (F := Ideal) x0 x1 x2 x3 x4 (ix2 i j) = Cert.Gcn.support2 x0 x1 x2 x3 x4 i j := by
  rw [val_main_v6_apply]
  unfold Cert.Gcn.support2
  simp only [lidx_v6, ridx_v6, hidden_eq]

/-- The class scores. -/
theorem logits_eq (i : Fin 10000) (j : Fin 40) :
    val_main_v10 (F := Ideal) x0 x1 x2 x3 x4 x5 (ix2 i j) = Cert.Gcn.logits x0 x1 x2 x3 x4 x5 i j := by
  rw [val_main_v10_apply, val_main_v7_apply, val_main_v9_apply, val_main_v8_apply]
  unfold Cert.Gcn.logits
  simp only [Ideal.addf_def, lidx_v7, ridx_v7, idx_v89, support2_eq]

/-- A one-axis maximum of a 10000 × 40 array along its rows, from the −∞ word: the fold of max over the row. -/
theorem rowReduce_apply (y : (⟨S10000x40, .f32⟩ : BufTy).Contents (Elt Ideal)) (i : Fin 10000) :
    Host.reduce (FloatOps.maximumf (F := Ideal) (φ := .f32)) y (val_main_call1_cst (F := Ideal)) reducesTo_S10000x40_S10000_d1 h_S_ (ix1 i)
      = (Finset.univ : Finset (Fin 40)).fold max (Ideal.ofBits .f32 0xFF800000#32) (fun j => y (ix2 i j)) := by
  have hR : S10000x40.Reduces [1] S10000 := by decide
  rw [Host.reduce_eq_fold_single (FloatOps.maximumf (F := Ideal) (φ := .f32)) y _ reducesTo_S10000x40_S10000_d1 hR h_S_]
  have hf : (y ∘ hR.lift (ix1 i)) = fun j : Fin 40 => y (ix2 i j) :=
    funext fun k => congrArg y (funext fun a => Fin.ext (by match a with | ⟨0, _⟩ => rfl | ⟨1, _⟩ => rfl))
  exact congrArg (fun f => Finset.fold max (Ideal.ofBits .f32 0xFF800000#32) f (Finset.univ : Finset (Fin 40))) hf

/-- The maximum of a fold's starting value and the fold is the fold. -/
theorem max_fold_self (b : EReal) (f : Fin 40 → EReal) :
    max b ((Finset.univ : Finset (Fin 40)).fold max b f) = (Finset.univ : Finset (Fin 40)).fold max b f :=
  max_eq_right ((Finset.le_fold_max b).mpr (Or.inl le_rfl))

/-- A row's largest score. -/
theorem rowMax_eq (i : Fin 10000) :
    val_main_call1_v2 (F := Ideal) x0 x1 x2 x3 x4 x5 (ix1 i) = Cert.Gcn.rowMax x0 x1 x2 x3 x4 x5 i := by
  rw [val_main_call1_v2_apply, val_main_call1_v1_apply, val_main_call1_cst_0_apply]
  unfold val_main_call1_v0
  rw [rowReduce_apply]
  unfold Cert.Gcn.rowMax
  simp only [Ideal.maximumf_def, Ideal.ofBits_def, logits_eq, max_fold_self]

/-- A score less its row's largest. -/
theorem shifted_eq (i : Fin 10000) (j : Fin 40) :
    val_main_call1_v5 (F := Ideal) x0 x1 x2 x3 x4 x5 (ix2 i j) = Cert.Gcn.shifted x0 x1 x2 x3 x4 x5 i j := by
  rw [val_main_call1_v5_apply, val_main_call1_v4_apply, val_main_call1_v3_apply]
  unfold Cert.Gcn.shifted
  simp only [Ideal.subf_def, idx_c34, logits_eq, rowMax_eq]

/-- The last stage is the specification. -/
theorem stage_eq : val_main_v11 (F := Ideal) x0 x1 x2 x3 x4 x5 = Cert.Gcn.result x0 x1 x2 x3 x4 x5 := by
  funext idx
  obtain ⟨i, j, rfl⟩ : ∃ i j, idx = ix2 i j := ⟨idx 0, idx 1, eq_ix2 idx⟩
  rw [val_main_v11_apply, val_main_call1_v10_apply, val_main_call1_v9_apply, val_main_call1_v8_apply,
    val_main_call1_v7_apply, val_main_call1_cst_1_apply]
  show _ = Cert.Gcn.shifted x0 x1 x2 x3 x4 x5 i j - Ideal.log (∑ k : Fin 40, Ideal.exp (Cert.Gcn.shifted x0 x1 x2 x3 x4 x5 i k))
  simp only [Ideal.subf_def, Ideal.hostUnary_log_def, Ideal.hostUnary_exp_def, Ideal.ofBits_def, Ideal.ofBits_zero_f32,
    zero_add, val_main_call1_v6_apply, idx_c810, idx_c7, shifted_eq]

/-- The reference run's result is the specification of the argument arrays. -/
theorem result_eq (m : (ℓ : Loc nD τ sig) → Buf (Elt Ideal) ℓ) (c : Dev nD) :
    Cert.ReferenceIdeal.Value.res_out0 (F := Ideal) m c
      = Cert.Gcn.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v11_eq (F := Ideal) m c).trans (stage_eq _ _ _ _ _ _)

end Cert.ReferenceIdeal.RefValue

end
-- ==== Proof.lean ====
/-
  The certificate of a fused two-layer graph convolution kernel against its jnp reference:

      out = log_softmax (adj · (max (adj · (x · W₁) + b₁) 0 · W₂) + b₂)    over f32[10000, ·].

  The kernel is ONE pallas_call on a grid of 2 phases × 25 row blocks of adj. The first point stores x · W₁ into a
  scratch matrix; every point of the first phase stores 400 rows of the second support matrix into a second scratch
  matrix; every point of the second phase stores 400 rows of the log-softmax into the output block. The output block's
  index is parked at 0 during the first phase, so its buffer is written back once before the body has stored anything
  into it: what that write-back writes is unknown, and the proof data are therefore RELATIONAL for that window — in the
  second phase the body leaves exactly the point's block of the result, in the first phase anything — and the result
  array is read off the write-backs in order: every row block is written by exactly one point of the second phase, and
  all of those come after the idle write-back (Proof/LibRelArr.lean, Proof/KFinal.lean).

  The three frames: the two kernels' by the run read at the argument arrays (the same body run, once per instance:
  Proof/B*.lean at the word level, Proof/K*.lean idealized); the reference's is its run with the result dropped.
  `preserves` is trivial: the ideal pass rewrote nothing. `algebraic`: at the ideal instance both result arrays are the
  one function `Cert.Gcn.result` of the argument arrays (Proof/Spec.lean) — the kernel's by reading its three payloads
  through the windows' blocks (Proof/KValue.lean), the reference's by reading its operations one at a time
  (Proof/RefValue.lean). No algebraic law joins the two sides: the kernel tiles the rows of adj and nothing else, and a
  row of a matrix product reads one row of its left factor; the reference's extra `max (−∞) ·` around the row maximum
  is the identity. The precondition is never opened.
-/
import proofs.«122475_g28243704939219_cont_9to1_2045_20_alg».proof.Defs
import proofs.«122475_g28243704939219_cont_9to1_2045_20_alg».proof.Proof.Gen.Kernel
import proofs.«122475_g28243704939219_cont_9to1_2045_20_alg».proof.Proof.Gen.KernelIdeal
import proofs.«122475_g28243704939219_cont_9to1_2045_20_alg».proof.Proof.Gen.ReferenceIdeal
import proofs.«122475_g28243704939219_cont_9to1_2045_20_alg».proof.Proof.Gen.Pre_finite_inputs
import proofs.«122475_g28243704939219_cont_9to1_2045_20_alg».proof.Proof.BFinal
import proofs.«122475_g28243704939219_cont_9to1_2045_20_alg».proof.Proof.KFinal
import proofs.«122475_g28243704939219_cont_9to1_2045_20_alg».proof.Proof.KValue
import proofs.«122475_g28243704939219_cont_9to1_2045_20_alg».proof.Proof.RefValue
import Idealize.ShloMosaic.Adequacy
import Idealize.ShloMosaic.Init

noncomputable section

namespace Cert.Proof

open Idealize.ShloMosaic Idealize.SL.Sem

/-- The word-level kernel runs and leaves its arguments alone: its run, the result array dropped. -/
theorem frame_k : Cert.frame_Kernel := fun m ρ _ =>
  (θ_run Cert.Kernel.defs _ _).mono (fun _ h c => (h c).2) (Cert.Kernel.Body.run_value (F := Bits) m ρ)

/-- The same of the idealized kernel. -/
theorem frame_ki : Cert.frame_KernelIdeal := fun m ρ _ =>
  (θ_run Cert.KernelIdeal.defs _ _).mono (fun _ h c => (h c).2) (Cert.KernelIdeal.Body.run_value (F := Ideal) m ρ)

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result array and the reference's are the specification of arguments that agree. -/
theorem algebraic : Cert.algebraic_KernelIdeal_ReferenceIdeal := by
  intro m ρ m' ρ' _ hagree
  refine ⟨fun c => Cert.KernelIdeal.Body.outArr (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2.1, (hagree c).2.2.1, (hagree c).2.2.2.1, (hagree c).2.2.2.2.1, (hagree c).2.2.2.2.2]
  exact (Cert.KernelIdeal.KValue.outArr_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
